-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256x128 .f32) (main_arg11 : FVec F S128 .f32) (main_arg12 : FVec F S128 .f32) (main_arg13 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S2000 : Shape := ⟨1, ![2000]⟩
abbrev S2000x1 : Shape := ⟨2, ![2000, 1]⟩
abbrev S850000x128 : Shape := ⟨2, ![850000, 128]⟩
abbrev S1x128 : Shape := ⟨2, ![1, 128]⟩

abbrev nBuf : Space → Nat
  | .hbm => 117
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x256, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x1, .f32⟩
  | .hbm, ⟨65, _⟩ => ⟨S850000x256, .f32⟩
  | .hbm, ⟨66, _⟩ => ⟨S850000x256, .f32⟩
  | .hbm, ⟨67, _⟩ => ⟨S_, .f32⟩
  | .hbm, ⟨68, _⟩ => ⟨S50000x256, .f32⟩
  | .hbm, ⟨69, _⟩ => ⟨S850000x1, .i32⟩
  | .hbm, ⟨70, _⟩ => ⟨S50000x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x256, .f32⟩
  | .hbm, ⟨85, _⟩ => ⟨S850000x1, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S50000x256, .f32⟩
  | .hbm, ⟨96, _⟩ => ⟨S50000x128, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x1, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x128 : S2000x1.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S850000x128 : Shape := ⟨2, ![850000, 128]⟩
abbrev S1x128 : Shape := ⟨2, ![1, 128]⟩

abbrev nBuf : Space → Nat
  | .hbm => 276
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000x256, .f32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x256, .f32⟩
  | 84 => ⟨S50000x256, .f32⟩
  | 85 => ⟨S50000x256, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S_, .f32⟩
  | 93 => ⟨S50000x1, .f32⟩
  | 94 => ⟨S50000x1, .f32⟩
  | 95 => ⟨S50000x1, .f32⟩
  | 96 => ⟨S50000x256, .f32⟩
  | 97 => ⟨S50000x256, .f32⟩
  | 98 => ⟨S1x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S50000x256, .f32⟩
  | 105 => ⟨S50000, .i32⟩
  | 106 => ⟨S850000, .i32⟩
  | 107 => ⟨S850000, .i32⟩
  | 108 => ⟨S_, .f32⟩
  | 109 => ⟨S850000, .f32⟩
  | 110 => ⟨S_, .f32⟩
  | 111 => ⟨S50000, .f32⟩
  | 112 => ⟨S850000x1, .i32⟩
  | 113 => ⟨S50000, .f32⟩
  | 114 => ⟨S_, .f32⟩
  | 115 => ⟨S50000, .f32⟩
  | 116 => ⟨S50000, .i1⟩
  | 117 => ⟨S50000, .f32⟩
  | 118 => ⟨S_, .f32⟩
  | 119 => ⟨S_, .f32⟩
  | 120 => ⟨S50000, .f32⟩
  | 121 => ⟨S50000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x256, .f32⟩
  | 22 => ⟨S850000x1, .f32⟩
  | 23 => ⟨S850000x256, .f32⟩
  | 24 => ⟨S850000x256, .f32⟩
  | 25 => ⟨S_, .f32⟩
  | 26 => ⟨S50000x256, .f32⟩
  | 27 => ⟨S850000x1, .i32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x256, .f32⟩
  | 42 => ⟨S50000x256, .f32⟩
  | 43 => ⟨S50000x256, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S_, .f32⟩
  | 51 => ⟨S50000x1, .f32⟩
  | 52 => ⟨S50000x1, .f32⟩
  | 53 => ⟨S50000x1, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S50000x128, .f32⟩
  | 63 => ⟨S50000, .i32⟩
  | 64 => ⟨S850000, .i32⟩
  | 65 => ⟨S850000, .i32⟩
  | 66 => ⟨S_, .f32⟩
  | 67 => ⟨S850000, .f32⟩
  | 68 => ⟨S_, .f32⟩
  | 69 => ⟨S50000, .f32⟩
  | 70 => ⟨S850000x1, .i32⟩
  | 71 => ⟨S50000, .f32⟩
  | 72 => ⟨S_, .f32⟩
  | 73 => ⟨S50000, .f32⟩
  | 74 => ⟨S50000, .i1⟩
  | 75 => ⟨S50000, .f32⟩
  | 76 => ⟨S_, .f32⟩
  | 77 => ⟨S_, .f32⟩
  | 78 => ⟨S50000, .f32⟩
  | 79 => ⟨S50000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x1, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S_, .f32⟩
  | 9 => ⟨S50000x1, .f32⟩
  | 10 => ⟨S50000x1, .f32⟩
  | 11 => ⟨S50000x1, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_call2_v0 : Ref sig .tc := ⟨.hbm, 119, rfl⟩
abbrev main_call2_v1 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_c_19 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_20 : Ref sig .tc := ⟨.hbm, 131, rfl⟩
abbrev main_v89 : Ref sig .tc := ⟨.hbm, 132, rfl⟩
abbrev main_v90 : Ref sig .tc := ⟨.hbm, 133, rfl⟩
abbrev main_c_21 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_22 : Ref sig .tc := ⟨.hbm, 141, rfl⟩
abbrev main_v97 : Ref sig .tc := ⟨.hbm, 142, rfl⟩
abbrev main_v98 : Ref sig .tc := ⟨.hbm, 143, rfl⟩
abbrev main_c_23 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call3_cst : Ref sig .tc := ⟨.hbm, 160, rfl⟩
abbrev main_call3_v0 : Ref sig .tc := ⟨.hbm, 161, rfl⟩
abbrev main_v113 : Ref sig .tc := ⟨.hbm, 162, rfl⟩
abbrev main_cst_25 : Ref sig .tc := ⟨.hbm, 163, rfl⟩
abbrev main_v114 : Ref sig .tc := ⟨.hbm, 164, rfl⟩
abbrev main_v115 : Ref sig .tc := ⟨.hbm, 165, rfl⟩
abbrev main_cst_26 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_27 : Ref sig .tc := ⟨.hbm, 172, rfl⟩
abbrev main_v121 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_cst_29 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_30 : Ref sig .tc := ⟨.hbm, 194, rfl⟩
abbrev main_v140 : Ref sig .tc := ⟨.hbm, 195, rfl⟩
abbrev main_cst_31 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_32 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_33 : Ref sig .tc := ⟨.hbm, 204, rfl⟩
abbrev main_call4_v0 : Ref sig .tc := ⟨.hbm, 205, rfl⟩
abbrev main_call4_v1 : Ref sig .tc := ⟨.hbm, 206, rfl⟩
abbrev main_v147 : Ref sig .tc := ⟨.hbm, 207, rfl⟩
abbrev main_c_34 : Ref sig .tc := ⟨.hbm, 208, rfl⟩
abbrev main_v148 : Ref sig .tc := ⟨.hbm, 209, rfl⟩
abbrev main_v149 : Ref sig .tc := ⟨.hbm, 210, rfl⟩
abbrev main_c_35 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_c_36 : Ref sig .tc := ⟨.hbm, 217, rfl⟩
abbrev main_v155 : Ref sig .tc := ⟨.hbm, 218, rfl⟩
abbrev main_v156 : Ref sig .tc := ⟨.hbm, 219, rfl⟩
abbrev main_c_37 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_c_38 : Ref sig .tc := ⟨.hbm, 227, rfl⟩
abbrev main_v163 : Ref sig .tc := ⟨.hbm, 228, rfl⟩
abbrev main_v164 : Ref sig .tc := ⟨.hbm, 229, rfl⟩
abbrev main_c_39 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_40 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_call5_cst : Ref sig .tc := ⟨.hbm, 246, rfl⟩
abbrev main_call5_v0 : Ref sig .tc := ⟨.hbm, 247, rfl⟩
abbrev main_v179 : Ref sig .tc := ⟨.hbm, 248, rfl⟩
abbrev main_cst_41 : Ref sig .tc := ⟨.hbm, 249, rfl⟩
abbrev main_v180 : Ref sig .tc := ⟨.hbm, 250, rfl⟩
abbrev main_v181 : Ref sig .tc := ⟨.hbm, 251, rfl⟩
abbrev main_cst_42 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_43 : Ref sig .tc := ⟨.hbm, 258, rfl⟩
abbrev main_v187 : Ref sig .tc := ⟨.hbm, 259, rfl⟩
abbrev main_v188 : Ref sig .tc := ⟨.hbm, 260, rfl⟩
abbrev main_cst_44 : Ref sig .tc := ⟨.hbm, 261, rfl⟩
abbrev main_v189 : Ref sig .tc := ⟨.hbm, 262, rfl⟩
abbrev main_v190 : Ref sig .tc := ⟨.hbm, 263, rfl⟩
abbrev main_cst_45 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run, with its result read.

  The program is six kernel launches among stretches of host operations. Its run is followed boundary by boundary:
  after each stretch the buffers hold the stretch's operations applied to what they held before, after each launch the
  launch's arrays hold what its write-backs leave and every other buffer what it held. At the return every buffer that
  outlives the program holds the last boundary's contents; so the result buffer holds that boundary's contents at the
  result, and each argument array, which nothing writes, holds what it was launched with.
-/
import proofs.«119902_j28243704939123_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; its result buffer then holds the last
    boundary's contents at the result, and every argument array what it was launched with. -/
theorem run_result : θ_run defs (onTc (τ := τ) (main (F := F))) ⟨m, fun _ => 0, ρ⟩ (fun r => ∀ c : Dev nD,
      r.2.mem ((c.tc : Thread nD τ).loc main_v83) = W12 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v83 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.RunValue

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«119902_j28243704939123_1_alg».proof.Proof.LibPlainMatmul
import proofs.«119902_j28243704939123_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.ProductLaunch.lean ====
/-
  The three matrix-product launches, each read as one whole-array product.

  A launch works through the left factor 2000 rows at a time: at grid point t it loads row block t of the left factor
  and the whole right factor, multiplies them, and writes the product back as row block t of the result. An entry of a
  product depends on one row of the left factor and one column of the right factor only, so the block product's entry
  (p, q) is the whole product's entry (2000·t + p, q); and the 25 row blocks cover the 50000 rows. Hence after the launch
  the result array is the product of the two arrays as the launch found them.
-/
import proofs.«119902_j28243704939123_1_alg».proof.Proof.Gen.KernelIdeal.Frame
import proofs.«119902_j28243704939123_1_alg».proof.Proof.LibMatrixProduct
import Idealize.ShloMosaic.Lib.Pipeline.Value
import Idealize.ShloMosaic.Lib.ValueIdx

set_option maxRecDepth 16384

noncomputable section

namespace Cert.KernelIdeal.ProductLaunch

open Cert.KernelIdeal Cert.KernelIdeal.Gen Cert.MatrixProduct
open Idealize.ShloMosaic Idealize.ShloMosaic.TcCoe Idealize.ShloMosaic.ValueIdx Idealize.SL.Sem
open Idealize.ShloMosaic.Pipeline (Dat)

/-- The origin of a block, as a function. -/
theorem hz : (![0, 0] : Fin 2 → Nat) = fun _ => 0 := funext fun a => by fin_cases a <;> rfl

variable (V : (c : Dev nD) → (b : Ref sig .tc) → Buf (Elt Ideal) ((c : Thread nD τ).loc b))

/-! ## Launch 0: rows of main_arg0 times main_arg2, 2000 rows at a time -/

section Launch0

/-- The body's stored value is the product of the two blocks it loads: the operands' narrowing to a shorter float format
    is the identity on the extended reals, and a product into zeros is the plain sum of products. -/
theorem pay0_eq (x0 : Vec Ideal S2000x128 .f32) (x1 : Vec Ideal S128x256 .f32) :
    k0_pay1 (F := Ideal) x0 x1 = mm x0 x1 := by
  unfold k0_pay1
  exact matmul_zero_eq_mm _ none _ _

/-- Where the windows' blocks sit at grid point t: the left factor's and the result's blocks are row block t, the right
    factor's is the whole matrix; there are 25 points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every row block is some point's: point q has the result's block q. -/
theorem onto0 : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

/-- What point t writes back is block t of the whole product: entry (p, q) of the block product uses row p of the left
    block, which is row 2000·t + p of the left factor, and column q of the right factor. -/
theorem flushed0_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨e0, e1, e2, e3, e4, e5, e6⟩ := idx0 t
  funext j
  show k0_pay1 (F := Ideal) (iblk0 V c 0 t) (iblk0 V c 1 t) j = mm (V c main_arg0) (V c main_arg2) (((cfg0.win 2).blk t).view.emb j)
  rw [pay0_eq]
  refine mm_of_row_col (M := 50000) (K := 128) (N := 256) (R := 2000) (Q := 256) (V c main_arg0) (V c main_arg2) (iblk0 V c 0 t) (iblk0 V c 1 t) j _ (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega

/-- An entry of the result array lies in point t's block exactly when its coordinates lie in the block's ranges. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 row blocks cover the result array: row r is in block r / 2000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, q0, q1⟩ := onto0 ⟨(i 0).val / 2000, by omega⟩
  have q0' : win0_2.index t (0 : Fin 2) = (i 0).val / 2000 := q0
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the launch its result array is the whole product. -/
theorem final0 (c : Dev nD) : (dat0 V c).arrAt 2 cfg0.N = mm (V c main_arg0) (V c main_arg2) :=
  (dat0 V c).arrAt_eq_of_cover 2 (mm (V c main_arg0) (V c main_arg2)) (fun t _ => flushed0_eq V c t) (cover0)

end Launch0

/-! ## Launch 2: rows of main_v47 times main_arg6, 2000 rows at a time -/

section Launch2

/-- The body's stored value is the product of the two blocks it loads: a cast of the left block to its own shape and the
    operands' narrowing to a shorter float format are the identity on the extended reals, and a product into zeros is the
    plain sum of products. -/
theorem pay2_eq (x0 : Vec Ideal S2000x256 .f32) (x1 : Vec Ideal S256x256 .f32) :
    k2_pay1 (F := Ideal) x0 x1 = mm x0 x1 := by
  unfold k2_pay1
  refine (matmul_zero_eq_mm _ none _ _).trans ?_
  show mm (shapeCast S2000x256 x0 shapeCasts_S2000x256_S2000x256) x1 = mm x0 x1
  rw [shapeCast_self]

/-- Where the windows' blocks sit at grid point t: the left factor's and the result's blocks are row block t, the right
    factor's is the whole matrix; there are 25 points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- Every row block is some point's: point q has the result's block q. -/
theorem onto2 : ∀ q : Fin 25, ∃ t : Fin cfg2.N, win2_2.index t (0 : Fin 2) = q.val ∧ win2_2.index t (1 : Fin 2) = 0 :=
  (by decide +kernel : ∀ q : Fin 25, ∃ t : Fin grid2.N, win2_2.index t (0 : Fin 2) = q.val ∧ win2_2.index t (1 : Fin 2) = 0)

/-- What point t writes back is block t of the whole product: entry (p, q) of the block product uses row p of the left
    block, which is row 2000·t + p of the left factor, and column q of the right factor. -/
theorem flushed2_eq (c : Dev nD) (t : Fin cfg2.N) :
    (dat2 V c).flushed 2 t = ((cfg2.win 2).blk t).view.read (Elt Ideal) (mm (V c main_v47) (V c main_arg6)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨e0, e1, e2, e3, e4, e5, e6⟩ := idx2 t
  funext j
  show k2_pay1 (F := Ideal) (iblk2 V c 0 t) (iblk2 V c 1 t) j = mm (V c main_v47) (V c main_arg6) (((cfg2.win 2).blk t).view.emb j)
  rw [pay2_eq]
  refine mm_of_row_col (M := 50000) (K := 256) (N := 256) (R := 2000) (Q := 256) (V c main_v47) (V c main_arg6) (iblk2 V c 0 t) (iblk2 V c 1 t) j _ (fun k => ?_) (fun k => ?_)
  · show V c main_v47 (((cfg2.win 0).blk t).view.emb (ix2 (j 0) k)) = V c main_v47 (ix2 ((((cfg2.win 2).blk t).view.emb j) 0) k)
    refine congrArg (V c main_v47) ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  · show V c main_arg6 (((cfg2.win 1).blk t).view.emb (ix2 k (j 1))) = V c main_arg6 (ix2 k ((((cfg2.win 2).blk t).view.emb j) 1))
    refine congrArg (V c main_arg6) ?_
    funext a; apply Fin.ext
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega

/-- An entry of the result array lies in point t's block exactly when its coordinates lie in the block's ranges. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v48).slice (win2_2.rect t)).set ↔ _
  rw [View.set_slice_whole, Rect.mem_set_unit]
  exact Iff.rfl

/-- The 25 row blocks cover the result array: row r is in block r / 2000. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, q0, q1⟩ := onto2 ⟨(i 0).val / 2000, by omega⟩
  have q0' : win2_2.index t (0 : Fin 2) = (i 0).val / 2000 := q0
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the launch its result array is the whole product. -/
theorem final2 (c : Dev nD) : (dat2 V c).arrAt 2 cfg2.N = mm (V c main_v47) (V c main_arg6) :=
  (dat2 V c).arrAt_eq_of_cover 2 (mm (V c main_v47) (V c main_arg6)) (fun t _ => flushed2_eq V c t) (cover2)

end Launch2

/-! ## Launch 4: rows of main_v65 times main_arg10, 2000 rows at a time -/

section Launch4

/-- The body's stored value is the product of the two blocks it loads: a cast of the left block to its own shape and the
    operands' narrowing to a shorter float format are the identity on the extended reals, and a product into zeros is the
    plain sum of products. -/
theorem pay4_eq (x0 : Vec Ideal S2000x256 .f32) (x1 : Vec Ideal S256x128 .f32) :
    k4_pay1 (F := Ideal) x0 x1 = mm x0 x1 := by
  unfold k4_pay1
  refine (matmul_zero_eq_mm _ none _ _).trans ?_
  show mm (shapeCast S2000x256 x0 shapeCasts_S2000x256_S2000x256) x1 = mm x0 x1
  rw [shapeCast_self]

/-- Where the windows' blocks sit at grid point t: the left factor's and the result's blocks are row block t, the right
    factor's is the whole matrix; there are 25 points. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 25 :=
  (by decide +kernel : ∀ t : Fin grid4.N, _)

/-- Every row block is some point's: point q has the result's block q. -/
theorem onto4 : ∀ q : Fin 25, ∃ t : Fin cfg4.N, win4_2.index t (0 : Fin 2) = q.val ∧ win4_2.index t (1 : Fin 2) = 0 :=
  (by decide +kernel : ∀ q : Fin 25, ∃ t : Fin grid4.N, win4_2.index t (0 : Fin 2) = q.val ∧ win4_2.index t (1 : Fin 2) = 0)

/-- What point t writes back is block t of the whole product: entry (p, q) of the block product uses row p of the left
    block, which is row 2000·t + p of the left factor, and column q of the right factor. -/
theorem flushed4_eq (c : Dev nD) (t : Fin cfg4.N) :
    (dat4 V c).flushed 2 t = ((cfg4.win 2).blk t).view.read (Elt Ideal) (mm (V c main_v65) (V c main_arg10)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x128) hz]
  obtain ⟨e0, e1, e2, e3, e4, e5, e6⟩ := idx4 t
  funext j
  show k4_pay1 (F := Ideal) (iblk4 V c 0 t) (iblk4 V c 1 t) j = mm (V c main_v65) (V c main_arg10) (((cfg4.win 2).blk t).view.emb j)
  rw [pay4_eq]
  refine mm_of_row_col (M := 50000) (K := 256) (N := 128) (R := 2000) (Q := 128) (V c main_v65) (V c main_arg10) (iblk4 V c 0 t) (iblk4 V c 1 t) j _ (fun k => ?_) (fun k => ?_)
  · show V c main_v65 (((cfg4.win 0).blk t).view.emb (ix2 (j 0) k)) = V c main_v65 (ix2 ((((cfg4.win 2).blk t).view.emb j) 0) k)
    refine congrArg (V c main_v65) ?_
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  · show V c main_arg10 (((cfg4.win 1).blk t).view.emb (ix2 k (j 1))) = V c main_arg10 (ix2 k ((((cfg4.win 2).blk t).view.emb j) 1))
    refine congrArg (V c main_arg10) ?_
    funext a; apply Fin.ext
    match a with
    | ⟨0, _⟩ => show win4_1.index t (0 : Fin 2) * 256 + 1 * k.val = k.val; omega
    | ⟨1, _⟩ => show win4_1.index t (1 : Fin 2) * 128 + 1 * (j 1).val = win4_2.index t (1 : Fin 2) * 128 + 1 * (j 1).val; omega

/-- An entry of the result array lies in point t's block exactly when its coordinates lie in the block's ranges. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v66).slice (win4_2.rect t)).set ↔ _
  rw [View.set_slice_whole, Rect.mem_set_unit]
  exact Iff.rfl

/-- The 25 row blocks cover the result array: row r is in block r / 2000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, q0, q1⟩ := onto4 ⟨(i 0).val / 2000, by omega⟩
  have q0' : win4_2.index t (0 : Fin 2) = (i 0).val / 2000 := q0
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After the launch its result array is the whole product. -/
theorem final4 (c : Dev nD) : (dat4 V c).arrAt 2 cfg4.N = mm (V c main_v65) (V c main_arg10) :=
  (dat4 V c).arrAt_eq_of_cover 2 (mm (V c main_v65) (V c main_arg10)) (fun t _ => flushed4_eq V c t) (cover4)

end Launch4

end Cert.KernelIdeal.ProductLaunch

end
-- ==== Proof.Spec.lean ====
/-
  One layer's last stage, row by row.

  After the neighbours' rows have been summed into a node's row, the layer adds a bias, keeps the positive part, and
  normalises the row over its C lanes: with r = max(x + b, 0), mu the mean of r, rc = r - mu and var the mean of rc²,
  the row becomes rc · rsqrt(var + eps) · g + be. Every entry of the result depends on ONE row of the input only; that
  is why a kernel working on blocks of rows and a program working on the whole array compute the same thing.

  The mean is spelt as the sum divided by the lane count's float word, and eps and zero as their float words, exactly
  as both programs spell them, so that nothing here has to be evaluated.
-/
import Idealize.ShloMosaic.PureOps.Ideal
import Idealize.ShloMosaic.Lib.ValueIdx

noncomputable section

open scoped BigOperators

namespace Cert.Layer

open Idealize.ShloMosaic Idealize.ShloMosaic.ValueIdx

/-- The float word of zero, the positive part's threshold. -/
abbrev zeroW : EReal := Ideal.ofBits .f32 0x00000000#32
/-- The float word added to the variance before the inverse square root. -/
abbrev epsW : EReal := Ideal.ofBits .f32 0x3727C5AC#32
/-- The lane count 256 as a float word. -/
abbrev w256 : EReal := Ideal.ofBits .f32 0x43800000#32
/-- The lane count 128 as a float word. -/
abbrev w128 : EReal := Ideal.ofBits .f32 0x43000000#32

/-- The positive part of a biased row. -/
def relu {C : ℕ} (x b : Fin C → EReal) : Fin C → EReal := fun k => max (x k + b k) zeroW

/-- A row's mean: the sum of its lanes divided by the lane count `cw`. -/
def mean {C : ℕ} (cw : EReal) (r : Fin C → EReal) : EReal := Ideal.div (∑ k : Fin C, r k) cw

/-- A row with its mean taken off every lane. -/
def centred {C : ℕ} (cw : EReal) (r : Fin C → EReal) : Fin C → EReal := fun k => r k - mean cw r

/-- Lane `q` of the finished row: bias, positive part, centring, scaling by the inverse root of the variance plus eps,
    then the learned scale `g` and shift `be`. -/
def postRow {C : ℕ} (cw : EReal) (x b g be : Fin C → EReal) (q : Fin C) : EReal :=
  centred cw (relu x b) q
      * Ideal.rsqrt (mean cw (fun k => centred cw (relu x b) k * centred cw (relu x b) k) + epsW)
      * g q + be q

/-- The last stage on a whole N × C array: row `i 0` of the result is `postRow` of row `i 0` of the input. -/
def post {N C : ℕ} (cw : EReal) (s : (⟨2, ![N, C]⟩ : Shape).Idx → EReal) (b g be : Fin C → EReal) :
    (⟨2, ![N, C]⟩ : Shape).Idx → EReal :=
  fun i => postRow cw (fun k => s (ix2 (i 0) k)) b g be (i 1)

theorem post_apply {N C : ℕ} (cw : EReal) (s : (⟨2, ![N, C]⟩ : Shape).Idx → EReal) (b g be : Fin C → EReal)
    (r : Fin N) (q : Fin C) : post cw s b g be (ix2 r q) = postRow cw (fun k => s (ix2 r k)) b g be q := rfl

/-- The finished row depends on the input row only: two arrays that agree on a row give the same finished row. -/
theorem postRow_congr {C : ℕ} (cw : EReal) {x x' b b' g g' be be' : Fin C → EReal}
    (hx : x = x') (hb : b = b') (hg : g = g') (hbe : be = be') (q : Fin C) :
    postRow cw x b g be q = postRow cw x' b' g' be' q := by subst hx hb hg hbe; rfl

end Cert.Layer

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPost.lean ====
/-
  The kernels' last stage, read at one entry of a block.

  Each of the three post-processing kernels holds a block of a rows of b lanes and three rows of b lanes (bias, scale,
  shift). It adds the bias row to every row of the block and keeps the positive part; takes each row's mean as the lane
  sum divided by the lane count's float word (the sums form a vector, the vector is cast to a column, the column is
  divided, and the quotient is repeated over the lanes); subtracts the mean; takes the mean of the squares the same way,
  adds eps and takes the inverse square root; and multiplies by that, by the scale row, and adds the shift row.

  Read at entry (p, q), every one of these steps looks at row p of the block only, and what comes out is the
  specification's postRow of row p at lane q. The steps are proved once for a block of any size; the three kernels
  are then instances, at 2000 rows of 256 lanes (twice) and 2000 rows of 128 lanes.
-/
import proofs.«119902_j28243704939123_1_alg».proof.Proof.Gen.KernelIdeal.Skeleton
import proofs.«119902_j28243704939123_1_alg».proof.Proof.Spec
import proofs.«119902_j28243704939123_1_alg».proof.Proof.LibLaneSum
import proofs.«119902_j28243704939123_1_alg».proof.Proof.LibColumnCast
import proofs.«119902_j28243704939123_1_alg».proof.Proof.LibColumnBroadcast
import Idealize.ShloMosaic.Lib.ValueLayout
import Idealize.ShloMosaic.Lib.Pipeline.Value

noncomputable section

open scoped BigOperators

namespace Cert.KernelIdeal.BlockValue

open Idealize.ShloMosaic Idealize.ShloMosaic.ValueIdx Cert.KernelIdeal Cert.KernelIdeal.Gen Cert.Layer

/-! ## The pieces of the computation on a block of any size -/

section Block

variable {a b : ℕ}

/-- The positive part of the biased block: the block plus the bias row repeated over the rows, against zero. -/
abbrev reluBlock (x0 : FVec Ideal ⟨2, ![a, b]⟩ .f32) (x1 : FVec Ideal ⟨2, ![1, b]⟩ .f32)
    (hc0 : (⟨2, ![a, b]⟩ : Shape).ShapeCasts ⟨2, ![a, b]⟩) (hc1 : (⟨2, ![1, b]⟩ : Shape).ShapeCasts ⟨2, ![1, b]⟩)
    (hb : (⟨2, ![1, b]⟩ : Shape).Broadcasts ⟨2, ![a, b]⟩) : FVec Ideal ⟨2, ![a, b]⟩ .f32 :=
  maximumf (F := Ideal) (φ := .f32)
    (addf (F := Ideal) (φ := .f32) (shapeCast ⟨2, ![a, b]⟩ x0 hc0) (broadcastTo ⟨2, ![a, b]⟩ (shapeCast ⟨2, ![1, b]⟩ x1 hc1) hb))
    (broadcast ⟨2, ![a, b]⟩ zeroW)

/-- The row means of a block as a column: the lane sums, cast to a column, divided by the lane count's word. -/
abbrev meanColumn (cw : EReal) (r : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) : FVec Ideal ⟨2, ![a, 1]⟩ .f32 :=
  divf (F := Ideal) (φ := .f32)
    (shapeCast ⟨2, ![a, 1]⟩ (multiReduction (F := Ideal) .add [1] ⟨1, ![a]⟩ r 0x00000000#32 hr hφ hacc) hcc)
    (broadcast ⟨2, ![a, 1]⟩ cw)

/-- A block with its row means taken off: the block minus its mean column repeated over the lanes. -/
abbrev centredBlock (cw : EReal) (r : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) (hbc : (⟨2, ![a, 1]⟩ : Shape).Broadcasts ⟨2, ![a, b]⟩) :
    FVec Ideal ⟨2, ![a, b]⟩ .f32 :=
  subf (F := Ideal) (φ := .f32) r (broadcastTo ⟨2, ![a, b]⟩ (meanColumn cw r hr hφ hacc hcc) hbc)

/-- The scaling factors of a centred block as a column: the inverse root of the mean square plus eps. -/
abbrev scaleColumn (cw : EReal) (d : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) : FVec Ideal ⟨2, ![a, 1]⟩ .f32 :=
  rsqrt (F := Ideal) (φ := .f32)
    (addf (F := Ideal) (φ := .f32) (meanColumn cw (mulf (F := Ideal) (φ := .f32) d d) hr hφ hacc hcc)
      (broadcast ⟨2, ![a, 1]⟩ epsW))

/-- The whole last stage on a block: the centred positive part, scaled, times the scale row, plus the shift row. -/
abbrev postBlock (cw : EReal) (x0 : FVec Ideal ⟨2, ![a, b]⟩ .f32) (x1 x2 x3 : FVec Ideal ⟨2, ![1, b]⟩ .f32)
    (hc0 : (⟨2, ![a, b]⟩ : Shape).ShapeCasts ⟨2, ![a, b]⟩) (hc1 : (⟨2, ![1, b]⟩ : Shape).ShapeCasts ⟨2, ![1, b]⟩)
    (hb : (⟨2, ![1, b]⟩ : Shape).Broadcasts ⟨2, ![a, b]⟩) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) (hbc : (⟨2, ![a, 1]⟩ : Shape).Broadcasts ⟨2, ![a, b]⟩) :
    FVec Ideal ⟨2, ![a, b]⟩ .f32 :=
  addf (F := Ideal) (φ := .f32)
    (mulf (F := Ideal) (φ := .f32)
      (mulf (F := Ideal) (φ := .f32) (centredBlock cw (reluBlock x0 x1 hc0 hc1 hb) hr hφ hacc hcc hbc)
        (broadcastTo ⟨2, ![a, b]⟩
          (scaleColumn cw (centredBlock cw (reluBlock x0 x1 hc0 hc1 hb) hr hφ hacc hcc hbc) hr hφ hacc hcc) hbc))
      (broadcastTo ⟨2, ![a, b]⟩ (shapeCast ⟨2, ![1, b]⟩ x2 hc1) hb))
    (broadcastTo ⟨2, ![a, b]⟩ (shapeCast ⟨2, ![1, b]⟩ x3 hc1) hb)

/-- One row, cast to its own shape and repeated over the rows of a block, reads at (p, k) the row's lane k. -/
theorem rowBroadcast_apply (x : FVec Ideal ⟨2, ![1, b]⟩ .f32) (hc1 : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ x hc1) hb (ix2 p k) = x (ix2 (0 : Fin 1) k) :=
  (broadcastTo_1b_ab_apply (shapeCast ⟨2, ![1, b]⟩ x hc1) hb p k).trans
    (congrFun (shapeCast_self x hc1) (ix2 (0 : Fin 1) k))

/-- The positive part of the biased block at (p, k) is the positive part of row p, biased, at lane k. -/
theorem reluBlock_apply (x0 : FVec Ideal ⟨2, ![a, b]⟩ .f32) (x1 : FVec Ideal ⟨2, ![1, b]⟩ .f32)
    (hc0 : (⟨2, ![a, b]⟩ : Shape).ShapeCasts ⟨2, ![a, b]⟩) (hc1 : (⟨2, ![1, b]⟩ : Shape).ShapeCasts ⟨2, ![1, b]⟩)
    (hb : (⟨2, ![1, b]⟩ : Shape).Broadcasts ⟨2, ![a, b]⟩) (p : Fin a) (k : Fin b) :
    reluBlock x0 x1 hc0 hc1 hb (ix2 p k) = relu (fun j => x0 (ix2 p j)) (fun j => x1 (ix2 (0 : Fin 1) j)) k :=
  congrArg₂ (fun u v : EReal => max (u + v) zeroW) (congrFun (shapeCast_self x0 hc0) (ix2 p k))
    (rowBroadcast_apply x1 hc1 hb p k)

/-- The mean column of a block at (p, u) is the mean of row p. -/
theorem meanColumn_apply (cw : EReal) (r : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) (p : Fin a) (u : Fin 1) :
    meanColumn cw r hr hφ hacc hcc (ix2 p u) = mean cw (fun k => r (ix2 p k)) :=
  congrArg (fun s : EReal => Ideal.div s cw)
    ((shapeCast_a_a1_apply (multiReduction (F := Ideal) .add [1] ⟨1, ![a]⟩ r 0x00000000#32 hr hφ hacc) hcc p u).trans
      (multiReduction_add_rows_apply r 0x00000000#32 hr hφ hacc p))

/-- A block with its row means taken off, at (p, c), is row p with its mean taken off, at lane c. -/
theorem centredBlock_apply (cw : EReal) (r : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) (hbc : (⟨2, ![a, 1]⟩ : Shape).Broadcasts ⟨2, ![a, b]⟩)
    (p : Fin a) (c : Fin b) :
    centredBlock cw r hr hφ hacc hcc hbc (ix2 p c) = centred cw (fun k => r (ix2 p k)) c :=
  congrArg (fun m : EReal => (r (ix2 p c) : EReal) - m)
    ((broadcastTo_a1_ab_apply (meanColumn cw r hr hφ hacc hcc) hbc p c).trans
      (meanColumn_apply cw r hr hφ hacc hcc p (0 : Fin 1)))

/-- The scaling column of a block, repeated over the lanes, reads at (p, c) the inverse root of row p's mean square
    plus eps. -/
theorem scaleColumn_apply (cw : EReal) (d : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) (hbc : (⟨2, ![a, 1]⟩ : Shape).Broadcasts ⟨2, ![a, b]⟩)
    (p : Fin a) (c : Fin b) :
    broadcastTo ⟨2, ![a, b]⟩ (scaleColumn cw d hr hφ hacc hcc) hbc (ix2 p c)
      = Ideal.rsqrt (mean cw (fun k => d (ix2 p k) * d (ix2 p k)) + epsW) :=
  (broadcastTo_a1_ab_apply (scaleColumn cw d hr hφ hacc hcc) hbc p c).trans
    (congrArg (fun m : EReal => Ideal.rsqrt (m + epsW))
      (meanColumn_apply cw (mulf (F := Ideal) (φ := .f32) d d) hr hφ hacc hcc p (0 : Fin 1)))

/-- The finished row from its centred positive part: when d is the centred positive part of the biased row, d scaled
    by the inverse root of its mean square plus eps, times the scale, plus the shift, is the specification's finished
    row. -/
theorem postRow_of_centred {C : ℕ} (cw : EReal) (d x bias g be : Fin C → EReal) (h : d = centred cw (relu x bias))
    (q : Fin C) :
    d q * Ideal.rsqrt (mean cw (fun k => d k * d k) + epsW) * g q + be q = postRow cw x bias g be q := by
  subst h; rfl

/-- THE LAST STAGE ON A BLOCK, AT AN ENTRY: entry (p, q) of the finished block is lane q of the finished row p. -/
theorem postBlock_apply (cw : EReal) (x0 : FVec Ideal ⟨2, ![a, b]⟩ .f32) (x1 x2 x3 : FVec Ideal ⟨2, ![1, b]⟩ .f32)
    (hc0 : (⟨2, ![a, b]⟩ : Shape).ShapeCasts ⟨2, ![a, b]⟩) (hc1 : (⟨2, ![1, b]⟩ : Shape).ShapeCasts ⟨2, ![1, b]⟩)
    (hb : (⟨2, ![1, b]⟩ : Shape).Broadcasts ⟨2, ![a, b]⟩) (hr : (⟨2, ![a, b]⟩ : Shape).Reduces [1] ⟨1, ![a]⟩)
    (hφ : FKind.Formats .f32) (hacc : (0x00000000#32 : BitVec 32) = FKind.add.neutral .f32 hφ)
    (hcc : (⟨1, ![a]⟩ : Shape).ShapeCasts ⟨2, ![a, 1]⟩) (hbc : (⟨2, ![a, 1]⟩ : Shape).Broadcasts ⟨2, ![a, b]⟩)
    (p : Fin a) (q : Fin b) :
    postBlock cw x0 x1 x2 x3 hc0 hc1 hb hr hφ hacc hcc hbc (ix2 p q)
      = postRow cw (fun k => x0 (ix2 p k)) (fun k => x1 (ix2 (0 : Fin 1) k)) (fun k => x2 (ix2 (0 : Fin 1) k))
          (fun k => x3 (ix2 (0 : Fin 1) k)) q := by
  -- row p of the centred positive part of the block is the centred positive part of row p
  have hD : (fun k : Fin b => centredBlock cw (reluBlock x0 x1 hc0 hc1 hb) hr hφ hacc hcc hbc (ix2 p k))
      = centred cw (relu (fun k => x0 (ix2 p k)) (fun k => x1 (ix2 (0 : Fin 1) k))) := by
    funext k
    refine (centredBlock_apply cw (reluBlock x0 x1 hc0 hc1 hb) hr hφ hacc hcc hbc p k).trans ?_
    exact congrArg (fun r : Fin b → EReal => centred cw r k) (funext fun j => reluBlock_apply x0 x1 hc0 hc1 hb p j)
  refine Eq.trans ?_ (postRow_of_centred cw _ _ _ _ _ hD q)
  -- the three repeated operands, read at (p, q)
  exact congrArg₂ (fun s t : EReal => s + t)
    (congrArg₂ (fun s t : EReal => s * t)
      (congrArg (fun s : EReal =>
          (centredBlock cw (reluBlock x0 x1 hc0 hc1 hb) hr hφ hacc hcc hbc (ix2 p q) : EReal) * s)
        (scaleColumn_apply cw (centredBlock cw (reluBlock x0 x1 hc0 hc1 hb) hr hφ hacc hcc hbc) hr hφ hacc hcc hbc p q))
      (rowBroadcast_apply x2 hc1 hb p q))
    (rowBroadcast_apply x3 hc1 hb p q)

end Block

/-! ## The three kernels -/

/-- The first layer's last stage: entry (p, q) of the block the kernel stores is lane q of the finished row p. -/
theorem pay1 (x0 : Vec Ideal S2000x256 .f32) (x1 x2 x3 : Vec Ideal S1x256 .f32) (p : Fin 2000) (q : Fin 256) :
    k1_pay1 (F := Ideal) x0 x1 x2 x3 (ix2 p q)
      = postRow w256 (fun k => x0 (ix2 p k)) (fun k => x1 (ix2 (0 : Fin 1) k)) (fun k => x2 (ix2 (0 : Fin 1) k))
          (fun k => x3 (ix2 (0 : Fin 1) k)) q := by
  unfold k1_pay1
  exact postBlock_apply (a := 2000) (b := 256) w256 x0 x1 x2 x3 _ _ _ _ _ _ _ _ p q

/-- The second layer's last stage, the same computation on the same shapes. -/
theorem pay3 (x0 : Vec Ideal S2000x256 .f32) (x1 x2 x3 : Vec Ideal S1x256 .f32) (p : Fin 2000) (q : Fin 256) :
    k3_pay1 (F := Ideal) x0 x1 x2 x3 (ix2 p q)
      = postRow w256 (fun k => x0 (ix2 p k)) (fun k => x1 (ix2 (0 : Fin 1) k)) (fun k => x2 (ix2 (0 : Fin 1) k))
          (fun k => x3 (ix2 (0 : Fin 1) k)) q := by
  unfold k3_pay1
  exact postBlock_apply (a := 2000) (b := 256) w256 x0 x1 x2 x3 _ _ _ _ _ _ _ _ p q

/-- The third layer's last stage, on 128 lanes. -/
theorem pay5 (x0 : Vec Ideal S2000x128 .f32) (x1 x2 x3 : Vec Ideal S1x128 .f32) (p : Fin 2000) (q : Fin 128) :
    k5_pay1 (F := Ideal) x0 x1 x2 x3 (ix2 p q)
      = postRow w128 (fun k => x0 (ix2 p k)) (fun k => x1 (ix2 (0 : Fin 1) k)) (fun k => x2 (ix2 (0 : Fin 1) k))
          (fun k => x3 (ix2 (0 : Fin 1) k)) q := by
  unfold k5_pay1
  exact postBlock_apply (a := 2000) (b := 128) w128 x0 x1 x2 x3 _ _ _ _ _ _ _ _ p q

end Cert.KernelIdeal.BlockValue

end
-- ==== Proof.PostLaunch.lean ====
/-
  The three post-processing launches, each read as one whole-array function.

  A launch works through its input 2000 rows at a time: at grid point t it loads row block t of the input and the
  three one-row arrays (bias, scale, shift), finishes every row of the block, and writes the block back as row block t
  of the result. A finished row depends on its own input row and on the three one-row arrays only, so row p of the
  finished block is row 2000·t + p of the finished array; and the 25 row blocks cover the 50000 rows.
-/
import proofs.«119902_j28243704939123_1_alg».proof.Proof.Gen.KernelIdeal.Frame
import proofs.«119902_j28243704939123_1_alg».proof.Proof.Spec
import proofs.«119902_j28243704939123_1_alg».proof.Proof.KernelPost
import Idealize.ShloMosaic.Lib.Pipeline.Value
import Idealize.ShloMosaic.Lib.ValueIdx

set_option maxRecDepth 16384

noncomputable section

namespace Cert.KernelIdeal.PostLaunch

open Cert.KernelIdeal Cert.KernelIdeal.Gen Cert.KernelIdeal.BlockValue Cert.Layer
open Idealize.ShloMosaic Idealize.ShloMosaic.TcCoe Idealize.ShloMosaic.ValueIdx Idealize.SL.Sem
open Idealize.ShloMosaic.Pipeline (Dat)

/-- The origin of a block, as a function. -/
theorem hz : (![0, 0] : Fin 2 → Nat) = fun _ => 0 := funext fun a => by fin_cases a <;> rfl

variable (V : (c : Dev nD) → (b : Ref sig .tc) → Buf (Elt Ideal) ((c : Thread nD τ).loc b))

/-! ## Launch 1: the last stage of a layer on main_v43, 2000 rows at a time -/

section Launch1

/-- Where the windows' blocks sit at grid point t: the input's and the result's blocks are row block t, each of the
    three one-row arrays is whole; there are 25 points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- Every row block is some point's: point q has the result's block q. -/
theorem onto1 : ∀ q : Fin 25, ∃ t : Fin cfg1.N, win1_4.index t (0 : Fin 2) = q.val ∧ win1_4.index t (1 : Fin 2) = 0 :=
  (by decide +kernel : ∀ q : Fin 25, ∃ t : Fin grid1.N, win1_4.index t (0 : Fin 2) = q.val ∧ win1_4.index t (1 : Fin 2) = 0)

/-- What point t writes back is block t of the whole array's last stage: the finished row p of the block is the
    finished row 2000·t + p of the array, since a finished row depends on its own input row and the three one-row
    arrays only. -/
theorem flushed1_eq (c : Dev nD) (t : Fin cfg1.N) :
    (dat1 V c).flushed 4 t = ((cfg1.win 4).blk t).view.read (Elt Ideal) (post w256 (V c main_v43) (fun k => V c main_v44 (ix2 (0 : Fin 1) k)) (fun k => V c main_v45 (ix2 (0 : Fin 1) k)) (fun k => V c main_v46 (ix2 (0 : Fin 1) k))) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz]
  obtain ⟨e0, e1, e2, e3, e4, e5, e6, e7, e8, e9, e10⟩ := idx1 t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 3 t) (ix2 p q)
    = (post w256 (V c main_v43) (fun k => V c main_v44 (ix2 (0 : Fin 1) k)) (fun k => V c main_v45 (ix2 (0 : Fin 1) k)) (fun k => V c main_v46 (ix2 (0 : Fin 1) k))) (((cfg1.win 4).blk t).view.emb (ix2 p q))
  refine (pay1 (iblk1 V c 0 t) (iblk1 V c 1 t) (iblk1 V c 2 t) (iblk1 V c 3 t) p q).trans ?_
  have hp : p.val < 2000 := p.isLt
  have he : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 256 + 1 * q.val = q.val; omega
  rw [he, post_apply]
  refine postRow_congr w256 ?_ ?_ ?_ ?_ q
  · funext k
    show V c main_v43 (((cfg1.win 0).blk t).view.emb (ix2 p k)) = V c main_v43 (ix2 (⟨t.val * 2000 + p.val, by omega⟩ : Fin 50000) k)
    refine congrArg (V c main_v43) ?_
    funext a; apply Fin.ext
    match a with
    | ⟨0, _⟩ => show win1_0.index t (0 : Fin 2) * 2000 + 1 * p.val = t.val * 2000 + p.val; omega
    | ⟨1, _⟩ => show win1_0.index t (1 : Fin 2) * 256 + 1 * k.val = k.val; omega
  · funext k
    show V c main_v44 (((cfg1.win 1).blk t).view.emb (ix2 (0 : Fin 1) k)) = V c main_v44 (ix2 (0 : Fin 1) k)
    refine congrArg (V c main_v44) ?_
    funext a; apply Fin.ext
    match a with
    | ⟨0, _⟩ => show win1_1.index t (0 : Fin 2) * 1 + 1 * 0 = 0; omega
    | ⟨1, _⟩ => show win1_1.index t (1 : Fin 2) * 256 + 1 * k.val = k.val; omega
  · funext k
    show V c main_v45 (((cfg1.win 2).blk t).view.emb (ix2 (0 : Fin 1) k)) = V c main_v45 (ix2 (0 : Fin 1) k)
    refine congrArg (V c main_v45) ?_
    funext a; apply Fin.ext
    match a with
    | ⟨0, _⟩ => show win1_2.index t (0 : Fin 2) * 1 + 1 * 0 = 0; omega
    | ⟨1, _⟩ => show win1_2.index t (1 : Fin 2) * 256 + 1 * k.val = k.val; omega
  · funext k
    show V c main_v46 (((cfg1.win 3).blk t).view.emb (ix2 (0 : Fin 1) k)) = V c main_v46 (ix2 (0 : Fin 1) k)
    refine congrArg (V c main_v46) ?_
    funext a; apply Fin.ext
    match a with
    | ⟨0, _⟩ => show win1_3.index t (0 : Fin 2) * 1 + 1 * 0 = 0; omega
    | ⟨1, _⟩ => show win1_3.index t (1 : Fin 2) * 256 + 1 * k.val = k.val; omega

/-- An entry of the result array lies in point t's block exactly when its coordinates lie in the block's ranges. -/
theorem mem_blk1 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v47).slice (win1_4.rect t)).set ↔ _
  rw [View.set_slice_whole, Rect.mem_set_unit]
  exact Iff.rfl

/-- The 25 row blocks cover the result array: row r is in block r / 2000. -/
theorem cover1 (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, q0, q1⟩ := onto1 ⟨(i 0).val / 2000, by omega⟩
  have q0' : win1_4.index t (0 : Fin 2) = (i 0).val / 2000 := q0
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- After the launch its result array is the last stage of the whole input array. -/
theorem final1 (c : Dev nD) : (dat1 V c).arrAt 4 cfg1.N = (post w256 (V c main_v43) (fun k => V c main_v44 (ix2 (0 : Fin 1) k)) (fun k => V c main_v45 (ix2 (0 : Fin 1) k)) (fun k => V c main_v46 (ix2 (0 : Fin 1) k))) :=
  (dat1 V c).arrAt_eq_of_cover 4 (post w256 (V c main_v43) (fun k => V c main_v44 (ix2 (0 : Fin 1) k)) (fun k => V c main_v45 (ix2 (0 : Fin 1) k)) (fun k => V c main_v46 (ix2 (0 : Fin 1) k))) (fun t _ => flushed1_eq V c t) (cover1)

end Launch1

/-! ## Launch 3: the last stage of a layer on main_v61, 2000 rows at a time -/

section Launch3

/-- Where the windows' blocks sit at grid point t: the input's and the result's blocks are row block t, each of the
    three one-row arrays is whole; there are 25 points. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 25 :=
  (by decide +kernel : ∀ t : Fin grid3.N, _)

/-- Every row block is some point's: point q has the result's block q. -/
theorem onto3 : ∀ q : Fin 25, ∃ t : Fin cfg3.N, win3_4.index t (0 : Fin 2) = q.val ∧ win3_4.index t (1 : Fin 2) = 0 :=
  (by decide +kernel : ∀ q : Fin 25, ∃ t : Fin grid3.N, win3_4.index t (0 : Fin 2) = q.val ∧ win3_4.index t (1 : Fin 2) = 0)

/-- What point t writes back is block t of the whole array's last stage: the finished row p of the block is the
    finished row 2000·t + p of the array, since a finished row depends on its own input row and the three one-row
    arrays only. -/
theorem flushed3_eq (c : Dev nD) (t : Fin cfg3.N) :
    (dat3 V c).flushed 4 t = ((cfg3.win 4).blk t).view.read (Elt Ideal) (post w256 (V c main_v61) (fun k => V c main_v62 (ix2 (0 : Fin 1) k)) (fun k => V c main_v63 (ix2 (0 : Fin 1) k)) (fun k => V c main_v64 (ix2 (0 : Fin 1) k))) := by
  show (cfg3.win 4).cut (grid3.coords t) ((dat3 V c).after 4 t) = _
  rw [after3_4]
  unfold out3_4
  rw [View.canon_unit_zero hz]
  simp only [View.ld_unit_zero (S := S2000x256) hz, View.ld_unit_zero (S := S1x256) hz]
  obtain ⟨e0, e1, e2, e3, e4, e5, e6, e7, e8, e9, e10⟩ := idx3 t
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 2 t) (iblk3 V c 3 t) (ix2 p q)
    = (post w256 (V c main_v61) (fun k => V c main_v62 (ix2 (0 : Fin 1) k)) (fun k => V c main_v63 (ix2 (0 : Fin 1) k)) (fun k => V c main_v64 (ix2 (0 : Fin 1) k))) (((cfg3.win 4).blk t).view.emb (ix2 p q))
  refine (pay3 (iblk3 V c 0 t) (iblk3 V c 1 t) (iblk3 V c 2 t) (iblk3 V c 3 t) p q).trans ?_
  have hp : p.val < 2000 := p.isLt
  have he : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 256 + 1 * q.val = q.val; omega
  rw [he, post_apply]
  refine postRow_congr w256 ?_ ?_ ?_ ?_ q
  · funext k
    show V c main_v61 (((cfg3.win 0).blk t).view.emb (ix2 p k)) = V c main_v61 (ix2 (⟨t.val * 2000 + p.val, by omega⟩ : Fin 50000) k)
    refine congrArg (V c main_v61) ?_
    funext a; apply Fin.ext
    match a with
    | ⟨0, _⟩ => show win3_0.index t (0 : Fin 2) * 2000 + 1 * p.val = t.val * 2000 + p.val; omega
    | ⟨1, _⟩ => show win3_0.index t (1 : Fin 2) * 256 + 1 * k.val = k.val; omega
  · funext k
    show V c main_v62 (((cfg3.win 1).blk t).view.emb (ix2 (0 : Fin 1) k)) = V c main_v62 (ix2 (0 : Fin 1) k)
    refine congrArg (V c main_v62) ?_
    funext a; apply Fin.ext
    match a with
    | ⟨0, _⟩ => show win3_1.index t (0 : Fin 2) * 1 + 1 * 0 = 0; omega
    | ⟨1, _⟩ => show win3_1.index t (1 : Fin 2) * 256 + 1 * k.val = k.val; omega
  · funext k
    show V c main_v63 (((cfg3.win 2).blk t).view.emb (ix2 (0 : Fin 1) k)) = V c main_v63 (ix2 (0 : Fin 1) k)
    refine congrArg (V c main_v63) ?_
    funext a; apply Fin.ext
    match a with
    | ⟨0, _⟩ => show win3_2.index t (0 : Fin 2) * 1 + 1 * 0 = 0; omega
    | ⟨1, _⟩ => show win3_2.index t (1 : Fin 2) * 256 + 1 * k.val = k.val; omega
  · funext k
    show V c main_v64 (((cfg3.win 3).blk t).view.emb (ix2 (0 : Fin 1) k)) = V c main_v64 (ix2 (0 : Fin 1) k)
    refine congrArg (V c main_v64) ?_
    funext a; apply Fin.ext
    match a with
    | ⟨0, _⟩ => show win3_3.index t (0 : Fin 2) * 1 + 1 * 0 = 0; omega
    | ⟨1, _⟩ => show win3_3.index t (1 : Fin 2) * 256 + 1 * k.val = k.val; omega

/-- An entry of the result array lies in point t's block exactly when its coordinates lie in the block's ranges. -/
theorem mem_blk3 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v65).slice (win3_4.rect t)).set ↔ _
  rw [View.set_slice_whole, Rect.mem_set_unit]
  exact Iff.rfl

/-- The 25 row blocks cover the result array: row r is in block r / 2000. -/
theorem cover3 (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  obtain ⟨t, q0, q1⟩ := onto3 ⟨(i 0).val / 2000, by omega⟩
  have q0' : win3_4.index t (0 : Fin 2) = (i 0).val / 2000 := q0
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- After the launch its result array is the last stage of the whole input array. -/
theorem final3 (c : Dev nD) : (dat3 V c).arrAt 4 cfg3.N = (post w256 (V c main_v61) (fun k => V c main_v62 (ix2 (0 : Fin 1) k)) (fun k => V c main_v63 (ix2 (0 : Fin 1) k)) (fun k => V c main_v64 (ix2 (0 : Fin 1) k))) :=
  (dat3 V c).arrAt_eq_of_cover 4 (post w256 (V c main_v61) (fun k => V c main_v62 (ix2 (0 : Fin 1) k)) (fun k => V c main_v63 (ix2 (0 : Fin 1) k)) (fun k => V c main_v64 (ix2 (0 : Fin 1) k))) (fun t _ => flushed3_eq V c t) (cover3)

end Launch3

/-! ## Launch 5: the last stage of a layer on main_v79, 2000 rows at a time -/

section Launch5

/-- Where the windows' blocks sit at grid point t: the input's and the result's blocks are row block t, each of the
    three one-row arrays is whole; there are 25 points. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 25 :=
  (by decide +kernel : ∀ t : Fin grid5.N, _)

/-- Every row block is some point's: point q has the result's block q. -/
theorem onto5 : ∀ q : Fin 25, ∃ t : Fin cfg5.N, win5_4.index t (0 : Fin 2) = q.val ∧ win5_4.index t (1 : Fin 2) = 0 :=
  (by decide +kernel : ∀ q : Fin 25, ∃ t : Fin grid5.N, win5_4.index t (0 : Fin 2) = q.val ∧ win5_4.index t (1 : Fin 2) = 0)

/-- What point t writes back is block t of the whole array's last stage: the finished row p of the block is the
    finished row 2000·t + p of the array, since a finished row depends on its own input row and the three one-row
    arrays only. -/
theorem flushed5_eq (c : Dev nD) (t : Fin cfg5.N) :
    (dat5 V c).flushed 4 t = ((cfg5.win 4).blk t).view.read (Elt Ideal) (post w128 (V c main_v79) (fun k => V c main_v80 (ix2 (0 : Fin 1) k)) (fun k => V c main_v81 (ix2 (0 : Fin 1) k)) (fun k => V c main_v82 (ix2 (0 : Fin 1) k))) := by
  show (cfg5.win 4).cut (grid5.coords t) ((dat5 V c).after 4 t) = _
  rw [after5_4]
  unfold out5_4
  rw [View.canon_unit_zero hz]
  simp only [View.ld_unit_zero (S := S2000x128) hz, View.ld_unit_zero (S := S1x128) hz]
  obtain ⟨e0, e1, e2, e3, e4, e5, e6, e7, e8, e9, e10⟩ := idx5 t
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (iblk5 V c 2 t) (iblk5 V c 3 t) (ix2 p q)
    = (post w128 (V c main_v79) (fun k => V c main_v80 (ix2 (0 : Fin 1) k)) (fun k => V c main_v81 (ix2 (0 : Fin 1) k)) (fun k => V c main_v82 (ix2 (0 : Fin 1) k))) (((cfg5.win 4).blk t).view.emb (ix2 p q))
  refine (pay5 (iblk5 V c 0 t) (iblk5 V c 1 t) (iblk5 V c 2 t) (iblk5 V c 3 t) p q).trans ?_
  have hp : p.val < 2000 := p.isLt
  have he : ((cfg5.win 4).blk t).view.emb (ix2 p q) = ix2 (⟨t.val * 2000 + p.val, by omega⟩ : Fin 50000) q := by
    funext a; apply Fin.ext
    match a with
    | ⟨0, _⟩ => show win5_4.index t (0 : Fin 2) * 2000 + 1 * p.val = t.val * 2000 + p.val; omega
    | ⟨1, _⟩ => show win5_4.index t (1 : Fin 2) * 128 + 1 * q.val = q.val; omega
  rw [he, post_apply]
  refine postRow_congr w128 ?_ ?_ ?_ ?_ q
  · funext k
    show V c main_v79 (((cfg5.win 0).blk t).view.emb (ix2 p k)) = V c main_v79 (ix2 (⟨t.val * 2000 + p.val, by omega⟩ : Fin 50000) k)
    refine congrArg (V c main_v79) ?_
    funext a; apply Fin.ext
    match a with
    | ⟨0, _⟩ => show win5_0.index t (0 : Fin 2) * 2000 + 1 * p.val = t.val * 2000 + p.val; omega
    | ⟨1, _⟩ => show win5_0.index t (1 : Fin 2) * 128 + 1 * k.val = k.val; omega
  · funext k
    show V c main_v80 (((cfg5.win 1).blk t).view.emb (ix2 (0 : Fin 1) k)) = V c main_v80 (ix2 (0 : Fin 1) k)
    refine congrArg (V c main_v80) ?_
    funext a; apply Fin.ext
    match a with
    | ⟨0, _⟩ => show win5_1.index t (0 : Fin 2) * 1 + 1 * 0 = 0; omega
    | ⟨1, _⟩ => show win5_1.index t (1 : Fin 2) * 128 + 1 * k.val = k.val; omega
  · funext k
    show V c main_v81 (((cfg5.win 2).blk t).view.emb (ix2 (0 : Fin 1) k)) = V c main_v81 (ix2 (0 : Fin 1) k)
    refine congrArg (V c main_v81) ?_
    funext a; apply Fin.ext
    match a with
    | ⟨0, _⟩ => show win5_2.index t (0 : Fin 2) * 1 + 1 * 0 = 0; omega
    | ⟨1, _⟩ => show win5_2.index t (1 : Fin 2) * 128 + 1 * k.val = k.val; omega
  · funext k
    show V c main_v82 (((cfg5.win 3).blk t).view.emb (ix2 (0 : Fin 1) k)) = V c main_v82 (ix2 (0 : Fin 1) k)
    refine congrArg (V c main_v82) ?_
    funext a; apply Fin.ext
    match a with
    | ⟨0, _⟩ => show win5_3.index t (0 : Fin 2) * 1 + 1 * 0 = 0; omega
    | ⟨1, _⟩ => show win5_3.index t (1 : Fin 2) * 128 + 1 * k.val = k.val; omega

/-- An entry of the result array lies in point t's block exactly when its coordinates lie in the block's ranges. -/
theorem mem_blk5 (t : Fin cfg5.N) (i : S50000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v83).slice (win5_4.rect t)).set ↔ _
  rw [View.set_slice_whole, Rect.mem_set_unit]
  exact Iff.rfl

/-- The 25 row blocks cover the result array: row r is in block r / 2000. -/
theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, q0, q1⟩ := onto5 ⟨(i 0).val / 2000, by omega⟩
  have q0' : win5_4.index t (0 : Fin 2) = (i 0).val / 2000 := q0
  refine ⟨t, flush5_4 t, ?_⟩
  rw [mem_blk5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

/-- After the launch its result array is the last stage of the whole input array. -/
theorem final5 (c : Dev nD) : (dat5 V c).arrAt 4 cfg5.N = (post w128 (V c main_v79) (fun k => V c main_v80 (ix2 (0 : Fin 1) k)) (fun k => V c main_v81 (ix2 (0 : Fin 1) k)) (fun k => V c main_v82 (ix2 (0 : Fin 1) k))) :=
  (dat5 V c).arrAt_eq_of_cover 4 (post w128 (V c main_v79) (fun k => V c main_v80 (ix2 (0 : Fin 1) k)) (fun k => V c main_v81 (ix2 (0 : Fin 1) k)) (fun k => V c main_v82 (ix2 (0 : Fin 1) k))) (fun t _ => flushed5_eq V c t) (cover5)

end Launch5

end Cert.KernelIdeal.PostLaunch

end
-- ==== Proof.Aggregate.lean ====
/-
  One layer's message passing, as one function of its operands.

  Both programs pass messages along the same 850000 edges (the graph's 800000 edges and one self-loop per node) in the
  same way: each edge takes its source node's row, scales it by the edge's weight, and adds it into its destination
  node's row. Both spell it with the same operations on the same shapes, so it is carried here as ONE function of the
  array of rows, the two arrays of row numbers and the array of weights, and never opened: what matters is only that
  the two programs feed it equal operands.
-/
import proofs.«119902_j28243704939123_1_alg».proof.Proof.Gen.ReferenceIdeal

noncomputable section

namespace Cert.Aggregate

open Cert.ReferenceIdeal Cert.ReferenceIdeal.Gen Idealize.ShloMosaic

variable {F : FTy → Type} [FloatOps F]

/-- Row numbers made ready for a gather: a negative number counts from the end (v + 50000), and the vector becomes a
    one-column matrix. -/
def wrap (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- One layer's message passing on a 50000 × 256 array `hw`: gather the row of each edge's source, scale it by the
    edge's weight, and add it into the row of the edge's destination, starting from zeros. -/
def agg256 (hw : (⟨S50000x256, .f32⟩ : BufTy).Contents (Elt F)) (s d : (⟨S850000, .i32⟩ : BufTy).Contents (Elt F))
    (nrm : (⟨S850000, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 d)
    (mulf (Host.gather gather_S50000x256_S850000x1_S850000x256_1_0_n_n_0_1_1256 hw (wrap s))
      (broadcastInDim S850000x256 ![0, 1] bcast_S850000x1_S850000x256_0_1
        (broadcastInDim S850000x1 ![0] bcast_S850000_S850000x1_0 nrm)))

/-- One layer's message passing on a 50000 × 128 array `hw`: gather the row of each edge's source, scale it by the
    edge's weight, and add it into the row of the edge's destination, starting from zeros. -/
def agg128 (hw : (⟨S50000x128, .f32⟩ : BufTy).Contents (Elt F)) (s d : (⟨S850000, .i32⟩ : BufTy).Contents (Elt F))
    (nrm : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 hw (wrap s))
      (broadcastInDim S850000x128 ![0, 1] bcast_S850000x1_S850000x128_0_1
        (broadcastInDim S850000x1 ![0] bcast_S850000_S850000x1_0 nrm)))

/-! ## The edge list -/

/-- The source row of each of the 850000 edges: the first line of the 2 × 800000 edge list, then 0 … 49999 for the
    self-loops. -/
def srcIdx (x1 : (⟨S2x800000, .i32⟩ : BufTy).Contents (Elt F)) : (⟨S850000, .i32⟩ : BufTy).Contents (Elt F) :=
  concatenate S850000 0
    [⟨S800000, shapeCast S800000 (extractStridedSlice S1x800000 ![0, 0] x1 slices_S2x800000_S1x800000_0_0) shapeCasts_S1x800000_S800000⟩,
     ⟨S50000, iotaInDim S50000 32 0⟩] concatenates_S800000_S50000_S850000_d0

/-- The destination row of each edge: the second line of the edge list, then 0 … 49999 for the self-loops. -/
def dstIdx (x1 : (⟨S2x800000, .i32⟩ : BufTy).Contents (Elt F)) : (⟨S850000, .i32⟩ : BufTy).Contents (Elt F) :=
  concatenate S850000 0
    [⟨S800000, shapeCast S800000 (extractStridedSlice S1x800000 ![1, 0] x1 slices_S2x800000_S1x800000_1_0) shapeCasts_S1x800000_S800000⟩,
     ⟨S50000, iotaInDim S50000 32 0⟩] concatenates_S800000_S50000_S850000_d0

/-- Each node's degree: a one added into the node's entry for every edge that ends there, starting from zeros. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- The scalar zero. -/
def zeroS : (⟨S_, .f32⟩ : BufTy).Contents (Elt F) := constant S_ .f32 0x00000000#32

/-- Where a degree is positive. -/
def positive (deg : (⟨S50000, .f32⟩ : BufTy).Contents (Elt F)) : (⟨S50000, .i1⟩ : BufTy).Contents (Elt F) :=
  cmpf .ogt deg (broadcastInDim S50000 ![] bcast_S_S50000 (constant S_ .f32 0x00000000#32))

/-- The inverse square root of a degree where the degree is positive, zero elsewhere. -/
def invRoot (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.rsqrt deg)
    (broadcastInDim S50000 ![] bcast_S_S50000 (id (constant S_ .f32 0x00000000#32)))

/-- An edge's weight: the product of the inverse root degrees of its two ends. -/
def edgeWeight (s d : (⟨S850000, .i32⟩ : BufTy).Contents (Elt F)) : (⟨S850000, .f32⟩ : BufTy).Contents (Elt F) :=
  mulf (Host.gather gather_S50000_S850000x1_S850000_n_0_n_n_0_1_1 (invRoot (degree d)) (wrap s))
    (Host.gather gather_S50000_S850000x1_S850000_n_0_n_n_0_1_1 (invRoot (degree d)) (wrap d))

end Cert.Aggregate

end
-- ==== Proof.Network.lean ====
/-
  The three-layer network, as one function of the fourteen arguments.

  A layer multiplies the node features by a weight matrix, passes messages along the edges (each edge carries its source's
  row, scaled by the edge's weight, into its destination's row), adds a bias, keeps the positive part and normalises
  each row. The edge list and the edge weights are the same in all three layers. Both programs compute this function;
  the kernel program computes the edge weights once, the reference once per layer, and the kernel does the products and
  the row normalisations 2000 rows at a time.
-/
import proofs.«119902_j28243704939123_1_alg».proof.Proof.Aggregate
import proofs.«119902_j28243704939123_1_alg».proof.Proof.Spec
import proofs.«119902_j28243704939123_1_alg».proof.Proof.LibMatrixProduct

noncomputable section

namespace Cert.Network

open Cert.ReferenceIdeal Cert.ReferenceIdeal.Gen Cert.Aggregate Cert.Layer Cert.MatrixProduct
open Idealize.ShloMosaic Idealize.ShloMosaic.ValueIdx

/-- A vector of C lanes as a function of the lane number. -/
abbrev lanes {C : ℕ} (v : (⟨1, ![C]⟩ : Shape).Idx → EReal) : Fin C → EReal := fun k => v (ix1 k)

/-- A layer with 256 output lanes on the aggregated products `p`. -/
def finish256 (p : (⟨S50000x256, .f32⟩ : BufTy).Contents (Elt Ideal)) (x1 : (⟨S2x800000, .i32⟩ : BufTy).Contents (Elt Ideal)) (b g be : (⟨S256, .f32⟩ : BufTy).Contents (Elt Ideal)) : (⟨S50000x256, .f32⟩ : BufTy).Contents (Elt Ideal) :=
  post w256 (agg256 (F := Ideal) p (srcIdx x1) (dstIdx x1) (edgeWeight (srcIdx x1) (dstIdx x1))) (lanes b) (lanes g) (lanes be)

/-- A layer with 128 output lanes on the aggregated products `p`. -/
def finish128 (p : (⟨S50000x128, .f32⟩ : BufTy).Contents (Elt Ideal)) (x1 : (⟨S2x800000, .i32⟩ : BufTy).Contents (Elt Ideal)) (b g be : (⟨S128, .f32⟩ : BufTy).Contents (Elt Ideal)) : (⟨S50000x128, .f32⟩ : BufTy).Contents (Elt Ideal) :=
  post w128 (agg128 (F := Ideal) p (srcIdx x1) (dstIdx x1) (edgeWeight (srcIdx x1) (dstIdx x1))) (lanes b) (lanes g) (lanes be)

/-- The whole network. -/
def net (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal))
    (x6 : (⟨S256x256, .f32⟩ : BufTy).Contents (Elt Ideal)) (x7 x8 x9 : (⟨S256, .f32⟩ : BufTy).Contents (Elt Ideal)) (x10 : (⟨S256x128, .f32⟩ : BufTy).Contents (Elt Ideal)) (x11 x12 x13 : (⟨S128, .f32⟩ : BufTy).Contents (Elt Ideal)) :
    (⟨S50000x128, .f32⟩ : BufTy).Contents (Elt Ideal) :=
  finish128 (mm (finish256 (mm (finish256 (mm x0 x2) x1 x3 x4 x5) x6) x1 x7 x8 x9) x10) x1 x11 x12 x13

end Cert.Network

end
-- ==== Proof.KernelValue.lean ====
/-
  What the kernel program's result buffer holds, boundary by boundary.

  The run (KernelRun.lean) leaves the result buffer at the last boundary's contents. Walking the boundaries from the
  launch: the first stretches compute the edge list and the edge weights from the second argument; then, three times
  over, a launch multiplies the current features by a weight matrix, a stretch passes messages along the edges and lays
  the bias, scale and shift vectors out as rows, and a launch finishes every row. A buffer that a stretch or a launch
  does not write keeps its contents across it; that is how the edge list, the weights and the arguments reach the
  places where they are used. At the end the result buffer holds the network's function of the fourteen arguments.
-/
import proofs.«119902_j28243704939123_1_alg».proof.Proof.Gen.KernelIdeal.Frame
import proofs.«119902_j28243704939123_1_alg».proof.Proof.ProductLaunch
import proofs.«119902_j28243704939123_1_alg».proof.Proof.PostLaunch
import proofs.«119902_j28243704939123_1_alg».proof.Proof.Network
import Idealize.ShloMosaic.Lib.ValueLayout
import Idealize.ShloMosaic.Lib.StableHlo.Run

set_option maxRecDepth 16384

noncomputable section

namespace Cert.KernelIdeal.ValueChain

open Cert.KernelIdeal Cert.KernelIdeal.Gen Cert.KernelIdeal.ProductLaunch Cert.KernelIdeal.PostLaunch
open Cert.Aggregate Cert.Layer Cert.MatrixProduct Cert.Network
open Idealize.ShloMosaic Idealize.ShloMosaic.TcCoe Idealize.ShloMosaic.ValueIdx Idealize.SL.Sem Idealize.ShloMosaic.StableHlo

/-- A buffer that none of a stretch's operations writes holds after the stretch what it held before: every operation
    writes one buffer, and it is another one. -/
macro "unwritten " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Finishes the reads a first pass left undone (those inside a concatenation's list of pieces): an operation's result at
    its own buffer is its function's value, and at any other buffer what was there before. -/
macro "finish_reads" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

variable (m : (ℓ : Loc nD τ sig) → Buf (Elt Ideal) ℓ) (ρ : Dev nD → PrngReg) (c : Dev nD)

/-! ## The arguments, where they are used -/

theorem arg0_at3 : W3 m ρ c (Proc.devRef .tc main_arg0) = m ((c.tc : Thread nD τ).loc main_arg0) :=
  calc W3 m ρ c (Proc.devRef .tc main_arg0)
    _ = W2 m ρ c (Proc.devRef .tc main_arg0) := (by unwritten hostOps0_2)
    _ = W1 m ρ c (Proc.devRef .tc main_arg0) := (by unwritten hostOps0_1)
    _ = W0 m ρ c (Proc.devRef .tc main_arg0) := (by unwritten hostOps0)
    _ = m ((c.tc : Thread nD τ).loc main_arg0) := rfl

theorem arg2_at3 : W3 m ρ c (Proc.devRef .tc main_arg2) = m ((c.tc : Thread nD τ).loc main_arg2) :=
  calc W3 m ρ c (Proc.devRef .tc main_arg2)
    _ = W2 m ρ c (Proc.devRef .tc main_arg2) := (by unwritten hostOps0_2)
    _ = W1 m ρ c (Proc.devRef .tc main_arg2) := (by unwritten hostOps0_1)
    _ = W0 m ρ c (Proc.devRef .tc main_arg2) := (by unwritten hostOps0)
    _ = m ((c.tc : Thread nD τ).loc main_arg2) := rfl

theorem arg3_at4 : W4 m ρ c (Proc.devRef .tc main_arg3) = m ((c.tc : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (by unwritten hostOps0_2)
    _ = W1 m ρ c (Proc.devRef .tc main_arg3) := (by unwritten hostOps0_1)
    _ = W0 m ρ c (Proc.devRef .tc main_arg3) := (by unwritten hostOps0)
    _ = m ((c.tc : Thread nD τ).loc main_arg3) := rfl

theorem arg4_at4 : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := (by unwritten hostOps0_2)
    _ = W1 m ρ c (Proc.devRef .tc main_arg4) := (by unwritten hostOps0_1)
    _ = W0 m ρ c (Proc.devRef .tc main_arg4) := (by unwritten hostOps0)
    _ = m ((c.tc : Thread nD τ).loc main_arg4) := rfl

theorem arg5_at4 : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := (by unwritten hostOps0_2)
    _ = W1 m ρ c (Proc.devRef .tc main_arg5) := (by unwritten hostOps0_1)
    _ = W0 m ρ c (Proc.devRef .tc main_arg5) := (by unwritten hostOps0)
    _ = m ((c.tc : Thread nD τ).loc main_arg5) := rfl

theorem arg6_at6 : W6 m ρ c (Proc.devRef .tc main_arg6) = m ((c.tc : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := (by unwritten hostOps1)
    _ = W3 m ρ c (Proc.devRef .tc main_arg6) := W4_of_ne m ρ c main_arg6 (by decide)
    _ = W2 m ρ c (Proc.devRef .tc main_arg6) := (by unwritten hostOps0_2)
    _ = W1 m ρ c (Proc.devRef .tc main_arg6) := (by unwritten hostOps0_1)
    _ = W0 m ρ c (Proc.devRef .tc main_arg6) := (by unwritten hostOps0)
    _ = m ((c.tc : Thread nD τ).loc main_arg6) := rfl

theorem arg7_at7 : W7 m ρ c (Proc.devRef .tc main_arg7) = m ((c.tc : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := (by unwritten hostOps1)
    _ = W3 m ρ c (Proc.devRef .tc main_arg7) := W4_of_ne m ρ c main_arg7 (by decide)
    _ = W2 m ρ c (Proc.devRef .tc main_arg7) := (by unwritten hostOps0_2)
    _ = W1 m ρ c (Proc.devRef .tc main_arg7) := (by unwritten hostOps0_1)
    _ = W0 m ρ c (Proc.devRef .tc main_arg7) := (by unwritten hostOps0)
    _ = m ((c.tc : Thread nD τ).loc main_arg7) := rfl

theorem arg8_at7 : W7 m ρ c (Proc.devRef .tc main_arg8) = m ((c.tc : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := (by unwritten hostOps1)
    _ = W3 m ρ c (Proc.devRef .tc main_arg8) := W4_of_ne m ρ c main_arg8 (by decide)
    _ = W2 m ρ c (Proc.devRef .tc main_arg8) := (by unwritten hostOps0_2)
    _ = W1 m ρ c (Proc.devRef .tc main_arg8) := (by unwritten hostOps0_1)
    _ = W0 m ρ c (Proc.devRef .tc main_arg8) := (by unwritten hostOps0)
    _ = m ((c.tc : Thread nD τ).loc main_arg8) := rfl

theorem arg9_at7 : W7 m ρ c (Proc.devRef .tc main_arg9) = m ((c.tc : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := (by unwritten hostOps1)
    _ = W3 m ρ c (Proc.devRef .tc main_arg9) := W4_of_ne m ρ c main_arg9 (by decide)
    _ = W2 m ρ c (Proc.devRef .tc main_arg9) := (by unwritten hostOps0_2)
    _ = W1 m ρ c (Proc.devRef .tc main_arg9) := (by unwritten hostOps0_1)
    _ = W0 m ρ c (Proc.devRef .tc main_arg9) := (by unwritten hostOps0)
    _ = m ((c.tc : Thread nD τ).loc main_arg9) := rfl

theorem arg10_at9 : W9 m ρ c (Proc.devRef .tc main_arg10) = m ((c.tc : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := (by unwritten hostOps3)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := (by unwritten hostOps1)
    _ = W3 m ρ c (Proc.devRef .tc main_arg10) := W4_of_ne m ρ c main_arg10 (by decide)
    _ = W2 m ρ c (Proc.devRef .tc main_arg10) := (by unwritten hostOps0_2)
    _ = W1 m ρ c (Proc.devRef .tc main_arg10) := (by unwritten hostOps0_1)
    _ = W0 m ρ c (Proc.devRef .tc main_arg10) := (by unwritten hostOps0)
    _ = m ((c.tc : Thread nD τ).loc main_arg10) := rfl

theorem arg11_at10 : W10 m ρ c (Proc.devRef .tc main_arg11) = m ((c.tc : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := (by unwritten hostOps3)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := (by unwritten hostOps1)
    _ = W3 m ρ c (Proc.devRef .tc main_arg11) := W4_of_ne m ρ c main_arg11 (by decide)
    _ = W2 m ρ c (Proc.devRef .tc main_arg11) := (by unwritten hostOps0_2)
    _ = W1 m ρ c (Proc.devRef .tc main_arg11) := (by unwritten hostOps0_1)
    _ = W0 m ρ c (Proc.devRef .tc main_arg11) := (by unwritten hostOps0)
    _ = m ((c.tc : Thread nD τ).loc main_arg11) := rfl

theorem arg12_at10 : W10 m ρ c (Proc.devRef .tc main_arg12) = m ((c.tc : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := (by unwritten hostOps3)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := (by unwritten hostOps1)
    _ = W3 m ρ c (Proc.devRef .tc main_arg12) := W4_of_ne m ρ c main_arg12 (by decide)
    _ = W2 m ρ c (Proc.devRef .tc main_arg12) := (by unwritten hostOps0_2)
    _ = W1 m ρ c (Proc.devRef .tc main_arg12) := (by unwritten hostOps0_1)
    _ = W0 m ρ c (Proc.devRef .tc main_arg12) := (by unwritten hostOps0)
    _ = m ((c.tc : Thread nD τ).loc main_arg12) := rfl

theorem arg13_at10 : W10 m ρ c (Proc.devRef .tc main_arg13) = m ((c.tc : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := W9_of_ne m ρ c main_arg13 (by decide)
    _ = W7 m ρ c (Proc.devRef .tc main_arg13) := (by unwritten hostOps3)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := (by unwritten hostOps1)
    _ = W3 m ρ c (Proc.devRef .tc main_arg13) := W4_of_ne m ρ c main_arg13 (by decide)
    _ = W2 m ρ c (Proc.devRef .tc main_arg13) := (by unwritten hostOps0_2)
    _ = W1 m ρ c (Proc.devRef .tc main_arg13) := (by unwritten hostOps0_1)
    _ = W0 m ρ c (Proc.devRef .tc main_arg13) := (by unwritten hostOps0)
    _ = m ((c.tc : Thread nD τ).loc main_arg13) := rfl

/-! ## The edge list and the edge weights -/

/-! After the first stretch: the edge list, and from the degrees where they are positive and their inverse roots. -/

set_option maxHeartbeats 2000000 in
theorem v5_at1 : W1 m ρ c (Proc.devRef .tc main_v5) = srcIdx (F := Ideal) (m ((c.tc : Thread nD τ).loc main_arg1)) := by
  show StableHlo.after hostOps0 _ _ = _
  after_results_simp
  finish_reads
  rfl

set_option maxHeartbeats 2000000 in
theorem v6_at1 : W1 m ρ c (Proc.devRef .tc main_v6) = dstIdx (F := Ideal) (m ((c.tc : Thread nD τ).loc main_arg1)) := by
  show StableHlo.after hostOps0 _ _ = _
  after_results_simp
  finish_reads
  rfl

set_option maxHeartbeats 2000000 in
theorem v12_at1 : W1 m ρ c (Proc.devRef .tc main_v12) = positive (F := Ideal) (degree (F := Ideal) (dstIdx (m ((c.tc : Thread nD τ).loc main_arg1)))) := by
  show StableHlo.after hostOps0 _ _ = _
  after_results_simp
  finish_reads
  rfl

set_option maxHeartbeats 2000000 in
theorem v13_at1 : W1 m ρ c (Proc.devRef .tc main_v13)
    = (Host.rsqrt (F := Ideal) (φ := .f32) (degree (F := Ideal) (dstIdx (m ((c.tc : Thread nD τ).loc main_arg1)))) : (⟨Cert.ReferenceIdeal.S50000, .f32⟩ : BufTy).Contents (Elt Ideal)) := by
  show StableHlo.after hostOps0 _ _ = _
  after_results_simp
  finish_reads
  rfl

set_option maxHeartbeats 2000000 in
theorem cst2_at1 : W1 m ρ c (Proc.devRef .tc main_cst_2) = zeroS (F := Ideal) := by
  show StableHlo.after hostOps0 _ _ = _
  after_results_simp
  finish_reads
  rfl

/-! After the second stretch: the inverse root degrees, zero where the degree is not positive. -/

/-- The second stretch's three operations — a scalar copied, spread over the nodes, and chosen where the degree is not
    positive — written without the typed references they are stated through: the same operations on the same buffers. -/
theorem stretch1_plain : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.ternary main_v12 main_v13 main_call0_v1 main_v14 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

set_option maxHeartbeats 2000000 in
theorem v14_at2 : W2 m ρ c (Proc.devRef .tc main_v14) = invRoot (F := Ideal) (degree (F := Ideal) (dstIdx (m ((c.tc : Thread nD τ).loc main_arg1)))) := by
  have h12 := v12_at1 m ρ c
  have h13 := v13_at1 m ρ c
  have hc := cst2_at1 m ρ c
  show StableHlo.after hostOps0_1 (W1 m ρ c) _ = _
  rw [stretch1_plain]
  generalize W1 m ρ c = V1 at h12 h13 hc ⊢
  after_results_simp
  finish_reads
  rw [h12, h13, hc]
  rfl

theorem v5_at2 : W2 m ρ c (Proc.devRef .tc main_v5) = srcIdx (F := Ideal) (m ((c.tc : Thread nD τ).loc main_arg1)) :=
  (show W2 m ρ c (Proc.devRef .tc main_v5) = W1 m ρ c (Proc.devRef .tc main_v5) from by unwritten hostOps0_1).trans (v5_at1 m ρ c)

theorem v6_at2 : W2 m ρ c (Proc.devRef .tc main_v6) = dstIdx (F := Ideal) (m ((c.tc : Thread nD τ).loc main_arg1)) :=
  (show W2 m ρ c (Proc.devRef .tc main_v6) = W1 m ρ c (Proc.devRef .tc main_v6) from by unwritten hostOps0_1).trans (v6_at1 m ρ c)

/-! After the third stretch: the edge weights. -/

set_option maxHeartbeats 2000000 in
theorem v29_at3 : W3 m ρ c (Proc.devRef .tc main_v29) = edgeWeight (F := Ideal) (srcIdx (m ((c.tc : Thread nD τ).loc main_arg1))) (dstIdx (m ((c.tc : Thread nD τ).loc main_arg1))) := by
  have h14 := v14_at2 m ρ c
  have h5 := v5_at2 m ρ c
  have h6 := v6_at2 m ρ c
  show StableHlo.after hostOps0_2 (W2 m ρ c) _ = _
  generalize W2 m ρ c = V2 at h14 h5 h6 ⊢
  after_results_simp
  finish_reads
  rw [h14, h5, h6]
  rfl

theorem v5_at3 : W3 m ρ c (Proc.devRef .tc main_v5) = srcIdx (F := Ideal) (m ((c.tc : Thread nD τ).loc main_arg1)) :=
  (show W3 m ρ c (Proc.devRef .tc main_v5) = W2 m ρ c (Proc.devRef .tc main_v5) from by unwritten hostOps0_2).trans (v5_at2 m ρ c)

theorem v6_at3 : W3 m ρ c (Proc.devRef .tc main_v6) = dstIdx (F := Ideal) (m ((c.tc : Thread nD τ).loc main_arg1)) :=
  (show W3 m ρ c (Proc.devRef .tc main_v6) = W2 m ρ c (Proc.devRef .tc main_v6) from by unwritten hostOps0_2).trans (v6_at2 m ρ c)

theorem v5_at4 : W4 m ρ c (Proc.devRef .tc main_v5) = srcIdx (F := Ideal) (m ((c.tc : Thread nD τ).loc main_arg1)) :=
  calc W4 m ρ c (Proc.devRef .tc main_v5)
    _ = W3 m ρ c (Proc.devRef .tc main_v5) := W4_of_ne m ρ c main_v5 (by decide)
    _ = _ := v5_at3 m ρ c

theorem v6_at4 : W4 m ρ c (Proc.devRef .tc main_v6) = dstIdx (F := Ideal) (m ((c.tc : Thread nD τ).loc main_arg1)) :=
  calc W4 m ρ c (Proc.devRef .tc main_v6)
    _ = W3 m ρ c (Proc.devRef .tc main_v6) := W4_of_ne m ρ c main_v6 (by decide)
    _ = _ := v6_at3 m ρ c

theorem v29_at4 : W4 m ρ c (Proc.devRef .tc main_v29) = edgeWeight (F := Ideal) (srcIdx (m ((c.tc : Thread nD τ).loc main_arg1))) (dstIdx (m ((c.tc : Thread nD τ).loc main_arg1))) :=
  calc W4 m ρ c (Proc.devRef .tc main_v29)
    _ = W3 m ρ c (Proc.devRef .tc main_v29) := W4_of_ne m ρ c main_v29 (by decide)
    _ = _ := v29_at3 m ρ c

theorem v5_at7 : W7 m ρ c (Proc.devRef .tc main_v5) = srcIdx (F := Ideal) (m ((c.tc : Thread nD τ).loc main_arg1)) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := (by unwritten hostOps1)
    _ = W3 m ρ c (Proc.devRef .tc main_v5) := W4_of_ne m ρ c main_v5 (by decide)
    _ = _ := v5_at3 m ρ c

theorem v6_at7 : W7 m ρ c (Proc.devRef .tc main_v6) = dstIdx (F := Ideal) (m ((c.tc : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := (by unwritten hostOps1)
    _ = W3 m ρ c (Proc.devRef .tc main_v6) := W4_of_ne m ρ c main_v6 (by decide)
    _ = _ := v6_at3 m ρ c

theorem v29_at7 : W7 m ρ c (Proc.devRef .tc main_v29) = edgeWeight (F := Ideal) (srcIdx (m ((c.tc : Thread nD τ).loc main_arg1))) (dstIdx (m ((c.tc : Thread nD τ).loc main_arg1))) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := (by unwritten hostOps1)
    _ = W3 m ρ c (Proc.devRef .tc main_v29) := W4_of_ne m ρ c main_v29 (by decide)
    _ = _ := v29_at3 m ρ c

theorem v5_at10 : W10 m ρ c (Proc.devRef .tc main_v5) = srcIdx (F := Ideal) (m ((c.tc : Thread nD τ).loc main_arg1)) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := (by unwritten hostOps3)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := (by unwritten hostOps1)
    _ = W3 m ρ c (Proc.devRef .tc main_v5) := W4_of_ne m ρ c main_v5 (by decide)
    _ = _ := v5_at3 m ρ c

theorem v6_at10 : W10 m ρ c (Proc.devRef .tc main_v6) = dstIdx (F := Ideal) (m ((c.tc : Thread nD τ).loc main_arg1)) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := (by unwritten hostOps3)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := (by unwritten hostOps1)
    _ = W3 m ρ c (Proc.devRef .tc main_v6) := W4_of_ne m ρ c main_v6 (by decide)
    _ = _ := v6_at3 m ρ c

theorem v29_at10 : W10 m ρ c (Proc.devRef .tc main_v29) = edgeWeight (F := Ideal) (srcIdx (m ((c.tc : Thread nD τ).loc main_arg1))) (dstIdx (m ((c.tc : Thread nD τ).loc main_arg1))) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := (by unwritten hostOps3)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := (by unwritten hostOps1)
    _ = W3 m ρ c (Proc.devRef .tc main_v29) := W4_of_ne m ρ c main_v29 (by decide)
    _ = _ := v29_at3 m ρ c

/-! ## Layer 1 -/

/-- After launch 0 its result array is the product of what it found. -/
theorem v30_at4 : W4 m ρ c (Proc.devRef .tc main_v30) = mm (m ((c.tc : Thread nD τ).loc main_arg0)) (m ((c.tc : Thread nD τ).loc main_arg2)) := by
  refine (W4_arr m ρ c 2).trans ((final0 (V3 m ρ) c).trans ?_)
  have hA : V3 m ρ c main_arg0 = _ := arg0_at3 m ρ c
  have hB : V3 m ρ c main_arg2 = _ := arg2_at3 m ρ c
  rw [hA, hB]

set_option maxHeartbeats 2000000 in
/-- After the stretch the aggregated array is the message passing of the product array the launch before left, along the
    edges and with the weights computed at the start. -/
theorem v43_at5 : W5 m ρ c (Proc.devRef .tc main_v43) = agg256 (F := Ideal) (mm (m ((c.tc : Thread nD τ).loc main_arg0)) (m ((c.tc : Thread nD τ).loc main_arg2))) (srcIdx (F := Ideal) (m ((c.tc : Thread nD τ).loc main_arg1))) (dstIdx (F := Ideal) (m ((c.tc : Thread nD τ).loc main_arg1))) (edgeWeight (F := Ideal) (srcIdx (m ((c.tc : Thread nD τ).loc main_arg1))) (dstIdx (m ((c.tc : Thread nD τ).loc main_arg1)))) := by
  show StableHlo.after hostOps1 (W4 m ρ c) (Proc.devRef .tc main_v43) = _
  after_results_simp
  rw [v30_at4 m ρ c, v5_at4 m ρ c, v6_at4 m ρ c, v29_at4 m ρ c]
  rfl

set_option maxHeartbeats 2000000 in
/-- A one-row array of the stretch is its argument vector laid out as a row. -/
theorem v44_at5 (k : Fin 256) : W5 m ρ c (Proc.devRef .tc main_v44) (ix2 (0 : Fin 1) k) = m ((c.tc : Thread nD τ).loc main_arg3) (ix1 k) := by
  show StableHlo.after hostOps1 (W4 m ρ c) (Proc.devRef .tc main_v44) (ix2 (0 : Fin 1) k) = _
  after_results_simp
  rw [arg3_at4 m ρ c]
  exact shapeCast_a_1a_apply (m ((c.tc : Thread nD τ).loc main_arg3)) shapeCasts_S256_S1x256 (0 : Fin 1) k

set_option maxHeartbeats 2000000 in
/-- A one-row array of the stretch is its argument vector laid out as a row. -/
theorem v45_at5 (k : Fin 256) : W5 m ρ c (Proc.devRef .tc main_v45) (ix2 (0 : Fin 1) k) = m ((c.tc : Thread nD τ).loc main_arg4) (ix1 k) := by
  show StableHlo.after hostOps1 (W4 m ρ c) (Proc.devRef .tc main_v45) (ix2 (0 : Fin 1) k) = _
  after_results_simp
  rw [arg4_at4 m ρ c]
  exact shapeCast_a_1a_apply (m ((c.tc : Thread nD τ).loc main_arg4)) shapeCasts_S256_S1x256 (0 : Fin 1) k

set_option maxHeartbeats 2000000 in
/-- A one-row array of the stretch is its argument vector laid out as a row. -/
theorem v46_at5 (k : Fin 256) : W5 m ρ c (Proc.devRef .tc main_v46) (ix2 (0 : Fin 1) k) = m ((c.tc : Thread nD τ).loc main_arg5) (ix1 k) := by
  show StableHlo.after hostOps1 (W4 m ρ c) (Proc.devRef .tc main_v46) (ix2 (0 : Fin 1) k) = _
  after_results_simp
  rw [arg5_at4 m ρ c]
  exact shapeCast_a_1a_apply (m ((c.tc : Thread nD τ).loc main_arg5)) shapeCasts_S256_S1x256 (0 : Fin 1) k

/-- After launch 1 its result array is the layer's last stage of the aggregated array. -/
theorem v47_at6 : W6 m ρ c (Proc.devRef .tc main_v47) = finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) := by
  refine (W6_arr m ρ c 4).trans ((final1 (V5 m ρ) c).trans ?_)
  have hX : V5 m ρ c main_v43 = _ := v43_at5 m ρ c
  have h1 : (fun k : Fin 256 => V5 m ρ c main_v44 (ix2 (0 : Fin 1) k)) = lanes (m ((c.tc : Thread nD τ).loc main_arg3)) := funext (v44_at5 m ρ c)
  have h2 : (fun k : Fin 256 => V5 m ρ c main_v45 (ix2 (0 : Fin 1) k)) = lanes (m ((c.tc : Thread nD τ).loc main_arg4)) := funext (v45_at5 m ρ c)
  have h3 : (fun k : Fin 256 => V5 m ρ c main_v46 (ix2 (0 : Fin 1) k)) = lanes (m ((c.tc : Thread nD τ).loc main_arg5)) := funext (v46_at5 m ρ c)
  rw [hX, h1, h2, h3]
  rfl

/-! ## Layer 2 -/

/-- After launch 2 its result array is the product of what it found. -/
theorem v48_at7 : W7 m ρ c (Proc.devRef .tc main_v48) = mm (finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg6)) := by
  refine (W7_arr m ρ c 2).trans ((final2 (V6 m ρ) c).trans ?_)
  have hA : V6 m ρ c main_v47 = _ := v47_at6 m ρ c
  have hB : V6 m ρ c main_arg6 = _ := arg6_at6 m ρ c
  rw [hA, hB]

set_option maxHeartbeats 2000000 in
/-- After the stretch the aggregated array is the message passing of the product array the launch before left, along the
    edges and with the weights computed at the start. -/
theorem v61_at8 : W8 m ρ c (Proc.devRef .tc main_v61) = agg256 (F := Ideal) (mm (finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg6))) (srcIdx (F := Ideal) (m ((c.tc : Thread nD τ).loc main_arg1))) (dstIdx (F := Ideal) (m ((c.tc : Thread nD τ).loc main_arg1))) (edgeWeight (F := Ideal) (srcIdx (m ((c.tc : Thread nD τ).loc main_arg1))) (dstIdx (m ((c.tc : Thread nD τ).loc main_arg1)))) := by
  show StableHlo.after hostOps3 (W7 m ρ c) (Proc.devRef .tc main_v61) = _
  after_results_simp
  rw [v48_at7 m ρ c, v5_at7 m ρ c, v6_at7 m ρ c, v29_at7 m ρ c]
  rfl

set_option maxHeartbeats 2000000 in
/-- A one-row array of the stretch is its argument vector laid out as a row. -/
theorem v62_at8 (k : Fin 256) : W8 m ρ c (Proc.devRef .tc main_v62) (ix2 (0 : Fin 1) k) = m ((c.tc : Thread nD τ).loc main_arg7) (ix1 k) := by
  show StableHlo.after hostOps3 (W7 m ρ c) (Proc.devRef .tc main_v62) (ix2 (0 : Fin 1) k) = _
  after_results_simp
  rw [arg7_at7 m ρ c]
  exact shapeCast_a_1a_apply (m ((c.tc : Thread nD τ).loc main_arg7)) shapeCasts_S256_S1x256 (0 : Fin 1) k

set_option maxHeartbeats 2000000 in
/-- A one-row array of the stretch is its argument vector laid out as a row. -/
theorem v63_at8 (k : Fin 256) : W8 m ρ c (Proc.devRef .tc main_v63) (ix2 (0 : Fin 1) k) = m ((c.tc : Thread nD τ).loc main_arg8) (ix1 k) := by
  show StableHlo.after hostOps3 (W7 m ρ c) (Proc.devRef .tc main_v63) (ix2 (0 : Fin 1) k) = _
  after_results_simp
  rw [arg8_at7 m ρ c]
  exact shapeCast_a_1a_apply (m ((c.tc : Thread nD τ).loc main_arg8)) shapeCasts_S256_S1x256 (0 : Fin 1) k

set_option maxHeartbeats 2000000 in
/-- A one-row array of the stretch is its argument vector laid out as a row. -/
theorem v64_at8 (k : Fin 256) : W8 m ρ c (Proc.devRef .tc main_v64) (ix2 (0 : Fin 1) k) = m ((c.tc : Thread nD τ).loc main_arg9) (ix1 k) := by
  show StableHlo.after hostOps3 (W7 m ρ c) (Proc.devRef .tc main_v64) (ix2 (0 : Fin 1) k) = _
  after_results_simp
  rw [arg9_at7 m ρ c]
  exact shapeCast_a_1a_apply (m ((c.tc : Thread nD τ).loc main_arg9)) shapeCasts_S256_S1x256 (0 : Fin 1) k

/-- After launch 3 its result array is the layer's last stage of the aggregated array. -/
theorem v65_at9 : W9 m ρ c (Proc.devRef .tc main_v65) = finish256 (mm (finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9)) := by
  refine (W9_arr m ρ c 4).trans ((final3 (V8 m ρ) c).trans ?_)
  have hX : V8 m ρ c main_v61 = _ := v61_at8 m ρ c
  have h1 : (fun k : Fin 256 => V8 m ρ c main_v62 (ix2 (0 : Fin 1) k)) = lanes (m ((c.tc : Thread nD τ).loc main_arg7)) := funext (v62_at8 m ρ c)
  have h2 : (fun k : Fin 256 => V8 m ρ c main_v63 (ix2 (0 : Fin 1) k)) = lanes (m ((c.tc : Thread nD τ).loc main_arg8)) := funext (v63_at8 m ρ c)
  have h3 : (fun k : Fin 256 => V8 m ρ c main_v64 (ix2 (0 : Fin 1) k)) = lanes (m ((c.tc : Thread nD τ).loc main_arg9)) := funext (v64_at8 m ρ c)
  rw [hX, h1, h2, h3]
  rfl

/-! ## Layer 3 -/

/-- After launch 4 its result array is the product of what it found. -/
theorem v66_at10 : W10 m ρ c (Proc.devRef .tc main_v66) = mm (finish256 (mm (finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9))) (m ((c.tc : Thread nD τ).loc main_arg10)) := by
  refine (W10_arr m ρ c 2).trans ((final4 (V9 m ρ) c).trans ?_)
  have hA : V9 m ρ c main_v65 = _ := v65_at9 m ρ c
  have hB : V9 m ρ c main_arg10 = _ := arg10_at9 m ρ c
  rw [hA, hB]

set_option maxHeartbeats 2000000 in
/-- After the stretch the aggregated array is the message passing of the product array the launch before left, along the
    edges and with the weights computed at the start. -/
theorem v79_at11 : W11 m ρ c (Proc.devRef .tc main_v79) = agg128 (F := Ideal) (mm (finish256 (mm (finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9))) (m ((c.tc : Thread nD τ).loc main_arg10))) (srcIdx (F := Ideal) (m ((c.tc : Thread nD τ).loc main_arg1))) (dstIdx (F := Ideal) (m ((c.tc : Thread nD τ).loc main_arg1))) (edgeWeight (F := Ideal) (srcIdx (m ((c.tc : Thread nD τ).loc main_arg1))) (dstIdx (m ((c.tc : Thread nD τ).loc main_arg1)))) := by
  show StableHlo.after hostOps5 (W10 m ρ c) (Proc.devRef .tc main_v79) = _
  after_results_simp
  rw [v66_at10 m ρ c, v5_at10 m ρ c, v6_at10 m ρ c, v29_at10 m ρ c]
  rfl

set_option maxHeartbeats 2000000 in
/-- A one-row array of the stretch is its argument vector laid out as a row. -/
theorem v80_at11 (k : Fin 128) : W11 m ρ c (Proc.devRef .tc main_v80) (ix2 (0 : Fin 1) k) = m ((c.tc : Thread nD τ).loc main_arg11) (ix1 k) := by
  show StableHlo.after hostOps5 (W10 m ρ c) (Proc.devRef .tc main_v80) (ix2 (0 : Fin 1) k) = _
  after_results_simp
  rw [arg11_at10 m ρ c]
  exact shapeCast_a_1a_apply (m ((c.tc : Thread nD τ).loc main_arg11)) shapeCasts_S128_S1x128 (0 : Fin 1) k

set_option maxHeartbeats 2000000 in
/-- A one-row array of the stretch is its argument vector laid out as a row. -/
theorem v81_at11 (k : Fin 128) : W11 m ρ c (Proc.devRef .tc main_v81) (ix2 (0 : Fin 1) k) = m ((c.tc : Thread nD τ).loc main_arg12) (ix1 k) := by
  show StableHlo.after hostOps5 (W10 m ρ c) (Proc.devRef .tc main_v81) (ix2 (0 : Fin 1) k) = _
  after_results_simp
  rw [arg12_at10 m ρ c]
  exact shapeCast_a_1a_apply (m ((c.tc : Thread nD τ).loc main_arg12)) shapeCasts_S128_S1x128 (0 : Fin 1) k

set_option maxHeartbeats 2000000 in
/-- A one-row array of the stretch is its argument vector laid out as a row. -/
theorem v82_at11 (k : Fin 128) : W11 m ρ c (Proc.devRef .tc main_v82) (ix2 (0 : Fin 1) k) = m ((c.tc : Thread nD τ).loc main_arg13) (ix1 k) := by
  show StableHlo.after hostOps5 (W10 m ρ c) (Proc.devRef .tc main_v82) (ix2 (0 : Fin 1) k) = _
  after_results_simp
  rw [arg13_at10 m ρ c]
  exact shapeCast_a_1a_apply (m ((c.tc : Thread nD τ).loc main_arg13)) shapeCasts_S128_S1x128 (0 : Fin 1) k

/-- After launch 5 its result array is the layer's last stage of the aggregated array. -/
theorem v83_at12 : W12 m ρ c (Proc.devRef .tc main_v83) = finish128 (mm (finish256 (mm (finish256 (mm (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg1)) (m ((c.tc : Thread nD τ).loc main_arg7)) (m ((c.tc : Thread nD τ).loc main_arg8)) (m ((c.tc : Thread nD τ).loc main_arg9))) (m ((c.tc : Thread nD τ).loc main_arg10))) (m ((c.tc : Thread nD τ).loc main_arg1)) (m ((c.tc : Thread nD τ).loc main_arg11)) (m ((c.tc : Thread nD τ).loc main_arg12)) (m ((c.tc : Thread nD τ).loc main_arg13)) := by
  refine (W12_arr m ρ c 4).trans ((final5 (V11 m ρ) c).trans ?_)
  have hX : V11 m ρ c main_v79 = _ := v79_at11 m ρ c
  have h1 : (fun k : Fin 128 => V11 m ρ c main_v80 (ix2 (0 : Fin 1) k)) = lanes (m ((c.tc : Thread nD τ).loc main_arg11)) := funext (v80_at11 m ρ c)
  have h2 : (fun k : Fin 128 => V11 m ρ c main_v81 (ix2 (0 : Fin 1) k)) = lanes (m ((c.tc : Thread nD τ).loc main_arg12)) := funext (v81_at11 m ρ c)
  have h3 : (fun k : Fin 128 => V11 m ρ c main_v82 (ix2 (0 : Fin 1) k)) = lanes (m ((c.tc : Thread nD τ).loc main_arg13)) := funext (v82_at11 m ρ c)
  rw [hX, h1, h2, h3]
  rfl

/-- The result buffer at the last boundary holds the network's function of the arguments. -/
theorem result : W12 m ρ c (Proc.devRef .tc main_v83)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  v83_at12 m ρ c

end Cert.KernelIdeal.ValueChain

end
-- ==== Proof.RefRun.lean ====
/-
  The reference program's run, read stage by stage.

  The reference is one straight line of 262 host operations. Its result, written out as ONE term of the arguments, is
  enormous: each layer's row normalisation uses its input six times over, so the inlined term grows sixfold with every
  layer. Read instead in nine stretches, it stays small: after each stretch only a handful of buffers matter to what
  follows, and each of them holds its operation's STAGE — the operation applied to its operands' stages, a term a few
  operations deep — of the arguments. The stretches end after the edge weights, after each layer's message passing,
  and after each layer's last stage. At the end the result buffer holds the last stage, and every argument array, which
  no operation writes, holds what it was launched with.
-/
import proofs.«119902_j28243704939123_1_alg».proof.Proof.RefRead
import Idealize.ShloMosaic.Lib.StableHlo.Run

set_option maxRecDepth 16384

noncomputable section

namespace Cert.ReferenceIdeal.RunP

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- Running one list of operations after another. -/
theorem after_append (a b : List (HloOp τ sig (Elt F))) (V : Valuation τ sig (Elt F)) :
    after (a ++ b) V = after b (after a V) := by
  induction a generalizing V with
  | nil => rfl
  | cons op a ih => simp only [List.cons_append, after_cons, ih]

/-- Finishes the reads a first pass left undone (those inside a concatenation's list of pieces): an operation's result at
    its own buffer is its function's value, and at any other buffer what was there before. -/
macro "finish_reads" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-! ## The nine stretches -/

/-- Operations 1 to 41 of the program, in order. -/
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]
/-- The buffers those operations write. -/
abbrev wr0 : List (Ref sig .tc) := [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30]

/-- Operations 42 to 57 of the program, in order. -/
abbrev seg1 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]
/-- The buffers those operations write. -/
abbrev wr1 : List (Ref sig .tc) := [main_c_6, main_v31, main_v32, main_c_7, main_v33, main_v34, main_v35, main_v36, main_v37, main_v38, main_v39, main_v40, main_cst_8, main_v41, main_v42, main_v43]

/-- Operations 58 to 90 of the program, in order. -/
abbrev seg2 : List (HloOp τ sig (Elt F)) :=
  [ unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf,
    nullary main_cst_9 (constant S_ .f32 0x00000000#32),
    binary main_v47 main_cst_9 main_v48 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v48 main_v49 (broadcastInDim S50000x1 ![0] bcast_S50000_S50000x1_0 : (⟨S50000, .f32⟩ : BufTy).Contents (Elt F) → (⟨S50000x1, .f32⟩ : BufTy).Contents (Elt F)),
    nullary main_cst_10 (constant S_ .f32 0x43800000#32),
    unary main_cst_10 main_v50 (broadcastInDim S50000x1 ![] bcast_S_S50000x1 : (⟨S_, .f32⟩ : BufTy).Contents (Elt F) → (⟨S50000x1, .f32⟩ : BufTy).Contents (Elt F)),
    binary main_v49 main_v50 main_v51 (Host.divf : (⟨S50000x1, .f32⟩ : BufTy).Contents (Elt F) → (⟨S50000x1, .f32⟩ : BufTy).Contents (Elt F) → (⟨S50000x1, .f32⟩ : BufTy).Contents (Elt F)),
    unary main_v51 main_v52 (broadcastInDim S50000x256 ![0, 1] bcast_S50000x1_S50000x256_0_1 : (⟨S50000x1, .f32⟩ : BufTy).Contents (Elt F) → (⟨S50000x256, .f32⟩ : BufTy).Contents (Elt F)),
    binary main_v47 main_v52 main_v53 (subf : (⟨S50000x256, .f32⟩ : BufTy).Contents (Elt F) → (⟨S50000x256, .f32⟩ : BufTy).Contents (Elt F) → (⟨S50000x256, .f32⟩ : BufTy).Contents (Elt F)),
    binary main_v53 main_v53 main_v54 (mulf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x00000000#32),
    binary main_v54 main_cst_11 main_v55 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v55 main_v56 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43800000#32),
    unary main_cst_12 main_v57 (broadcastInDim S50000x1 ![] bcast_S_S50000x1 : (⟨S_, .f32⟩ : BufTy).Contents (Elt F) → (⟨S50000x1, .f32⟩ : BufTy).Contents (Elt F)),
    binary main_v56 main_v57 main_v58 (Host.divf : (⟨S50000x1, .f32⟩ : BufTy).Contents (Elt F) → (⟨S50000x1, .f32⟩ : BufTy).Contents (Elt F) → (⟨S50000x1, .f32⟩ : BufTy).Contents (Elt F)),
    nullary main_cst_13 (constant S_ .f32 0x3727C5AC#32),
    unary main_cst_13 main_v59 (broadcastInDim S50000x1 ![] bcast_S_S50000x1 : (⟨S_, .f32⟩ : BufTy).Contents (Elt F) → (⟨S50000x1, .f32⟩ : BufTy).Contents (Elt F)),
    binary main_v58 main_v59 main_v60 (addf : (⟨S50000x1, .f32⟩ : BufTy).Contents (Elt F) → (⟨S50000x1, .f32⟩ : BufTy).Contents (Elt F) → (⟨S50000x1, .f32⟩ : BufTy).Contents (Elt F)),
    unary main_v60 main_v61 (Host.rsqrt : (⟨S50000x1, .f32⟩ : BufTy).Contents (Elt F) → (⟨S50000x1, .f32⟩ : BufTy).Contents (Elt F)),
    unary main_v61 main_v62 (broadcastInDim S50000x256 ![0, 1] bcast_S50000x1_S50000x256_0_1 : (⟨S50000x1, .f32⟩ : BufTy).Contents (Elt F) → (⟨S50000x256, .f32⟩ : BufTy).Contents (Elt F)),
    binary main_v53 main_v62 main_v63 (mulf : (⟨S50000x256, .f32⟩ : BufTy).Contents (Elt F) → (⟨S50000x256, .f32⟩ : BufTy).Contents (Elt F) → (⟨S50000x256, .f32⟩ : BufTy).Contents (Elt F)),
    unary main_arg4 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (mulf : (⟨S50000x256, .f32⟩ : BufTy).Contents (Elt F) → (⟨S50000x256, .f32⟩ : BufTy).Contents (Elt F) → (⟨S50000x256, .f32⟩ : BufTy).Contents (Elt F)),
    unary main_arg5 main_v67 (broadcastInDim S1x256 ![1] bcast_S256_S1x256_1 : (⟨S256, .f32⟩ : BufTy).Contents (Elt F) → (⟨S1x256, .f32⟩ : BufTy).Contents (Elt F)),
    unary main_v67 main_v68 (broadcastInDim S50000x256 ![0, 1] bcast_S1x256_S50000x256_0_1 : (⟨S1x256, .f32⟩ : BufTy).Contents (Elt F) → (⟨S50000x256, .f32⟩ : BufTy).Contents (Elt F)),
    binary main_v66 main_v68 main_v69 (addf : (⟨S50000x256, .f32⟩ : BufTy).Contents (Elt F) → (⟨S50000x256, .f32⟩ : BufTy).Contents (Elt F) → (⟨S50000x256, .f32⟩ : BufTy).Contents (Elt F)) ]
/-- The buffers those operations write. -/
abbrev wr2 : List (Ref sig .tc) := [main_v44, main_v45, main_v46, main_call1_cst, main_call1_v0, main_v47, main_cst_9, main_v48, main_v49, main_cst_10, main_v50, main_v51, main_v52, main_v53, main_v54, main_cst_11, main_v55, main_v56, main_cst_12, main_v57, main_v58, main_cst_13, main_v59, main_v60, main_v61, main_v62, main_v63, main_v64, main_v65, main_v66, main_v67, main_v68, main_v69]

/-- Operations 91 to 127 of the program, in order. -/
abbrev seg3 : List (HloOp τ sig (Elt F)) :=
  [ binary main_v69 main_arg6 main_v70 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_v71 (iotaInDim S50000 32 0),
    binary main_v1 main_v71 main_v72 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v71 main_v73 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_14 (constant S_ .f32 0x3F800000#32),
    unary main_cst_14 main_v74 (broadcastInDim S850000 ![] bcast_S_S850000 : (⟨S_, .f32⟩ : BufTy).Contents (Elt F) → (⟨S850000, .f32⟩ : BufTy).Contents (Elt F)),
    nullary main_cst_15 (constant S_ .f32 0x00000000#32),
    unary main_cst_15 main_v75 (broadcastInDim S50000 ![] bcast_S_S50000 : (⟨S_, .f32⟩ : BufTy).Contents (Elt F) → (⟨S50000, .f32⟩ : BufTy).Contents (Elt F)),
    unary main_v73 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_16 (constant S_ .f32 0x00000000#32),
    unary main_cst_16 main_v78 (broadcastInDim S50000 ![] bcast_S_S50000 : (⟨S_, .f32⟩ : BufTy).Contents (Elt F) → (⟨S50000, .f32⟩ : BufTy).Contents (Elt F)),
    binary main_v77 main_v78 main_v79 (cmpf .ogt : (⟨S50000, .f32⟩ : BufTy).Contents (Elt F) → (⟨S50000, .f32⟩ : BufTy).Contents (Elt F) → (⟨S50000, .i1⟩ : BufTy).Contents (Elt F)),
    unary main_v77 main_v80 (Host.rsqrt : (⟨S50000, .f32⟩ : BufTy).Contents (Elt F) → (⟨S50000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v79) (TRef.of (T := ⟨S50000, .f32⟩) main_v80) (TRef.of (T := ⟨S50000, .f32⟩) main_call2_v1) (TRef.of (T := ⟨S50000, .f32⟩) main_v81) select,
    nullary main_c_18 (constantI S_ 32 0#32),
    unary main_c_18 main_v82 (broadcastInDim S850000 ![] bcast_S_S850000 : (⟨S_, .i32⟩ : BufTy).Contents (Elt F) → (⟨S850000, .i32⟩ : BufTy).Contents (Elt F)),
    binary main_v72 main_v82 main_v83 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v84 (broadcastInDim S850000 ![] bcast_S_S850000 : (⟨S_, .i32⟩ : BufTy).Contents (Elt F) → (⟨S850000, .i32⟩ : BufTy).Contents (Elt F)),
    binary main_v72 main_v84 main_v85 (addi : (⟨S850000, .i32⟩ : BufTy).Contents (Elt F) → (⟨S850000, .i32⟩ : BufTy).Contents (Elt F) → (⟨S850000, .i32⟩ : BufTy).Contents (Elt F)),
    ternary main_v83 main_v85 main_v72 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v86 main_v87 (broadcastInDim S850000x1 ![0] bcast_S850000_S850000x1_0 : (⟨S850000, .i32⟩ : BufTy).Contents (Elt F) → (⟨S850000x1, .i32⟩ : BufTy).Contents (Elt F)),
    binary main_v81 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_20 (constantI S_ 32 0#32),
    unary main_c_20 main_v89 (broadcastInDim S850000 ![] bcast_S_S850000 : (⟨S_, .i32⟩ : BufTy).Contents (Elt F) → (⟨S850000, .i32⟩ : BufTy).Contents (Elt F)),
    binary main_v73 main_v89 main_v90 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v91 (broadcastInDim S850000 ![] bcast_S_S850000 : (⟨S_, .i32⟩ : BufTy).Contents (Elt F) → (⟨S850000, .i32⟩ : BufTy).Contents (Elt F)),
    binary main_v73 main_v91 main_v92 (addi : (⟨S850000, .i32⟩ : BufTy).Contents (Elt F) → (⟨S850000, .i32⟩ : BufTy).Contents (Elt F) → (⟨S850000, .i32⟩ : BufTy).Contents (Elt F)),
    ternary main_v90 main_v92 main_v73 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v93 main_v94 (broadcastInDim S850000x1 ![0] bcast_S850000_S850000x1_0 : (⟨S850000, .i32⟩ : BufTy).Contents (Elt F) → (⟨S850000x1, .i32⟩ : BufTy).Contents (Elt F)),
    binary main_v81 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v88 main_v95 main_v96 (mulf : (⟨S850000, .f32⟩ : BufTy).Contents (Elt F) → (⟨S850000, .f32⟩ : BufTy).Contents (Elt F) → (⟨S850000, .f32⟩ : BufTy).Contents (Elt F)) ]
/-- The buffers those operations write. -/
abbrev wr3 : List (Ref sig .tc) := [main_v70, main_v71, main_v72, main_v73, main_cst_14, main_v74, main_cst_15, main_v75, main_v76, main_v77, main_cst_16, main_v78, main_v79, main_v80, main_cst_17, main_call2_v0, main_call2_v1, main_v81, main_c_18, main_v82, main_v83, main_c_19, main_v84, main_v85, main_v86, main_v87, main_v88, main_c_20, main_v89, main_v90, main_c_21, main_v91, main_v92, main_v93, main_v94, main_v95, main_v96]

/-- Operations 128 to 143 of the program, in order. -/
abbrev seg4 : List (HloOp τ sig (Elt F)) :=
  [ nullary main_c_22 (constantI S_ 32 0#32),
    unary main_c_22 main_v97 (broadcastInDim S850000 ![] bcast_S_S850000 : (⟨S_, .i32⟩ : BufTy).Contents (Elt F) → (⟨S850000, .i32⟩ : BufTy).Contents (Elt F)),
    binary main_v72 main_v97 main_v98 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v99 (broadcastInDim S850000 ![] bcast_S_S850000 : (⟨S_, .i32⟩ : BufTy).Contents (Elt F) → (⟨S850000, .i32⟩ : BufTy).Contents (Elt F)),
    binary main_v72 main_v99 main_v100 (addi : (⟨S850000, .i32⟩ : BufTy).Contents (Elt F) → (⟨S850000, .i32⟩ : BufTy).Contents (Elt F) → (⟨S850000, .i32⟩ : BufTy).Contents (Elt F)),
    ternary main_v98 main_v100 main_v72 main_v101 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v101 main_v102 (broadcastInDim S850000x1 ![0] bcast_S850000_S850000x1_0 : (⟨S850000, .i32⟩ : BufTy).Contents (Elt F) → (⟨S850000x1, .i32⟩ : BufTy).Contents (Elt F)),
    binary main_v70 main_v102 main_v103 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v96 main_v104 (broadcastInDim S850000x1 ![0] bcast_S850000_S850000x1_0 : (⟨S850000, .f32⟩ : BufTy).Contents (Elt F) → (⟨S850000x1, .f32⟩ : BufTy).Contents (Elt F)),
    unary main_v104 main_v105 (broadcastInDim S850000x256 ![0, 1] bcast_S850000x1_S850000x256_0_1 : (⟨S850000x1, .f32⟩ : BufTy).Contents (Elt F) → (⟨S850000x256, .f32⟩ : BufTy).Contents (Elt F)),
    binary main_v103 main_v105 main_v106 (mulf : (⟨S850000x256, .f32⟩ : BufTy).Contents (Elt F) → (⟨S850000x256, .f32⟩ : BufTy).Contents (Elt F) → (⟨S850000x256, .f32⟩ : BufTy).Contents (Elt F)),
    nullary main_cst_24 (constant S_ .f32 0x00000000#32),
    unary main_cst_24 main_v107 (broadcastInDim S50000x256 ![] bcast_S_S50000x256 : (⟨S_, .f32⟩ : BufTy).Contents (Elt F) → (⟨S50000x256, .f32⟩ : BufTy).Contents (Elt F)),
    unary main_v73 main_v108 (broadcastInDim S850000x1 ![0] bcast_S850000_S850000x1_0 : (⟨S850000, .i32⟩ : BufTy).Contents (Elt F) → (⟨S850000x1, .i32⟩ : BufTy).Contents (Elt F)),
    ternary main_v107 main_v108 main_v106 main_v109 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]
/-- The buffers those operations write. -/
abbrev wr4 : List (Ref sig .tc) := [main_c_22, main_v97, main_v98, main_c_23, main_v99, main_v100, main_v101, main_v102, main_v103, main_v104, main_v105, main_v106, main_cst_24, main_v107, main_v108, main_v109]

/-- Operations 144 to 176 of the program, in order. -/
abbrev seg5 : List (HloOp τ sig (Elt F)) :=
  [ unary main_arg7 main_v110 (broadcastInDim S1x256 ![1] bcast_S256_S1x256_1 : (⟨S256, .f32⟩ : BufTy).Contents (Elt F) → (⟨S1x256, .f32⟩ : BufTy).Contents (Elt F)),
    unary main_v110 main_v111 (broadcastInDim S50000x256 ![0, 1] bcast_S1x256_S50000x256_0_1 : (⟨S1x256, .f32⟩ : BufTy).Contents (Elt F) → (⟨S50000x256, .f32⟩ : BufTy).Contents (Elt F)),
    binary main_v109 main_v111 main_v112 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v112) (TRef.of (T := ⟨S50000x256, .f32⟩) main_call3_v0) (TRef.of (T := ⟨S50000x256, .f32⟩) main_v113) maximumf,
    nullary main_cst_25 (constant S_ .f32 0x00000000#32),
    binary main_v113 main_cst_25 main_v114 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v114 main_v115 (broadcastInDim S50000x1 ![0] bcast_S50000_S50000x1_0 : (⟨S50000, .f32⟩ : BufTy).Contents (Elt F) → (⟨S50000x1, .f32⟩ : BufTy).Contents (Elt F)),
    nullary main_cst_26 (constant S_ .f32 0x43800000#32),
    unary main_cst_26 main_v116 (broadcastInDim S50000x1 ![] bcast_S_S50000x1 : (⟨S_, .f32⟩ : BufTy).Contents (Elt F) → (⟨S50000x1, .f32⟩ : BufTy).Contents (Elt F)),
    binary main_v115 main_v116 main_v117 (Host.divf : (⟨S50000x1, .f32⟩ : BufTy).Contents (Elt F) → (⟨S50000x1, .f32⟩ : BufTy).Contents (Elt F) → (⟨S50000x1, .f32⟩ : BufTy).Contents (Elt F)),
    unary main_v117 main_v118 (broadcastInDim S50000x256 ![0, 1] bcast_S50000x1_S50000x256_0_1 : (⟨S50000x1, .f32⟩ : BufTy).Contents (Elt F) → (⟨S50000x256, .f32⟩ : BufTy).Contents (Elt F)),
    binary main_v113 main_v118 main_v119 (subf : (⟨S50000x256, .f32⟩ : BufTy).Contents (Elt F) → (⟨S50000x256, .f32⟩ : BufTy).Contents (Elt F) → (⟨S50000x256, .f32⟩ : BufTy).Contents (Elt F)),
    binary main_v119 main_v119 main_v120 (mulf : (⟨S50000x256, .f32⟩ : BufTy).Contents (Elt F) → (⟨S50000x256, .f32⟩ : BufTy).Contents (Elt F) → (⟨S50000x256, .f32⟩ : BufTy).Contents (Elt F)),
    nullary main_cst_27 (constant S_ .f32 0x00000000#32),
    binary main_v120 main_cst_27 main_v121 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v121 main_v122 (broadcastInDim S50000x1 ![0] bcast_S50000_S50000x1_0 : (⟨S50000, .f32⟩ : BufTy).Contents (Elt F) → (⟨S50000x1, .f32⟩ : BufTy).Contents (Elt F)),
    nullary main_cst_28 (constant S_ .f32 0x43800000#32),
    unary main_cst_28 main_v123 (broadcastInDim S50000x1 ![] bcast_S_S50000x1 : (⟨S_, .f32⟩ : BufTy).Contents (Elt F) → (⟨S50000x1, .f32⟩ : BufTy).Contents (Elt F)),
    binary main_v122 main_v123 main_v124 (Host.divf : (⟨S50000x1, .f32⟩ : BufTy).Contents (Elt F) → (⟨S50000x1, .f32⟩ : BufTy).Contents (Elt F) → (⟨S50000x1, .f32⟩ : BufTy).Contents (Elt F)),
    nullary main_cst_29 (constant S_ .f32 0x3727C5AC#32),
    unary main_cst_29 main_v125 (broadcastInDim S50000x1 ![] bcast_S_S50000x1 : (⟨S_, .f32⟩ : BufTy).Contents (Elt F) → (⟨S50000x1, .f32⟩ : BufTy).Contents (Elt F)),
    binary main_v124 main_v125 main_v126 (addf : (⟨S50000x1, .f32⟩ : BufTy).Contents (Elt F) → (⟨S50000x1, .f32⟩ : BufTy).Contents (Elt F) → (⟨S50000x1, .f32⟩ : BufTy).Contents (Elt F)),
    unary main_v126 main_v127 (Host.rsqrt : (⟨S50000x1, .f32⟩ : BufTy).Contents (Elt F) → (⟨S50000x1, .f32⟩ : BufTy).Contents (Elt F)),
    unary main_v127 main_v128 (broadcastInDim S50000x256 ![0, 1] bcast_S50000x1_S50000x256_0_1 : (⟨S50000x1, .f32⟩ : BufTy).Contents (Elt F) → (⟨S50000x256, .f32⟩ : BufTy).Contents (Elt F)),
    binary main_v119 main_v128 main_v129 (mulf : (⟨S50000x256, .f32⟩ : BufTy).Contents (Elt F) → (⟨S50000x256, .f32⟩ : BufTy).Contents (Elt F) → (⟨S50000x256, .f32⟩ : BufTy).Contents (Elt F)),
    unary main_arg8 main_v130 (broadcastInDim S1x256 ![1] bcast_S256_S1x256_1 : (⟨S256, .f32⟩ : BufTy).Contents (Elt F) → (⟨S1x256, .f32⟩ : BufTy).Contents (Elt F)),
    unary main_v130 main_v131 (broadcastInDim S50000x256 ![0, 1] bcast_S1x256_S50000x256_0_1 : (⟨S1x256, .f32⟩ : BufTy).Contents (Elt F) → (⟨S50000x256, .f32⟩ : BufTy).Contents (Elt F)),
    binary main_v129 main_v131 main_v132 (mulf : (⟨S50000x256, .f32⟩ : BufTy).Contents (Elt F) → (⟨S50000x256, .f32⟩ : BufTy).Contents (Elt F) → (⟨S50000x256, .f32⟩ : BufTy).Contents (Elt F)),
    unary main_arg9 main_v133 (broadcastInDim S1x256 ![1] bcast_S256_S1x256_1 : (⟨S256, .f32⟩ : BufTy).Contents (Elt F) → (⟨S1x256, .f32⟩ : BufTy).Contents (Elt F)),
    unary main_v133 main_v134 (broadcastInDim S50000x256 ![0, 1] bcast_S1x256_S50000x256_0_1 : (⟨S1x256, .f32⟩ : BufTy).Contents (Elt F) → (⟨S50000x256, .f32⟩ : BufTy).Contents (Elt F)),
    binary main_v132 main_v134 main_v135 (addf : (⟨S50000x256, .f32⟩ : BufTy).Contents (Elt F) → (⟨S50000x256, .f32⟩ : BufTy).Contents (Elt F) → (⟨S50000x256, .f32⟩ : BufTy).Contents (Elt F)) ]
/-- The buffers those operations write. -/
abbrev wr5 : List (Ref sig .tc) := [main_v110, main_v111, main_v112, main_call3_cst, main_call3_v0, main_v113, main_cst_25, main_v114, main_v115, main_cst_26, main_v116, main_v117, main_v118, main_v119, main_v120, main_cst_27, main_v121, main_v122, main_cst_28, main_v123, main_v124, main_cst_29, main_v125, main_v126, main_v127, main_v128, main_v129, main_v130, main_v131, main_v132, main_v133, main_v134, main_v135]

/-- Operations 177 to 213 of the program, in order. -/
abbrev seg6 : List (HloOp τ sig (Elt F)) :=
  [ binary main_v135 main_arg10 main_v136 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_v137 (iotaInDim S50000 32 0),
    binary main_v1 main_v137 main_v138 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v137 main_v139 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_30 (constant S_ .f32 0x3F800000#32),
    unary main_cst_30 main_v140 (broadcastInDim S850000 ![] bcast_S_S850000 : (⟨S_, .f32⟩ : BufTy).Contents (Elt F) → (⟨S850000, .f32⟩ : BufTy).Contents (Elt F)),
    nullary main_cst_31 (constant S_ .f32 0x00000000#32),
    unary main_cst_31 main_v141 (broadcastInDim S50000 ![] bcast_S_S50000 : (⟨S_, .f32⟩ : BufTy).Contents (Elt F) → (⟨S50000, .f32⟩ : BufTy).Contents (Elt F)),
    unary main_v139 main_v142 (broadcastInDim S850000x1 ![0] bcast_S850000_S850000x1_0 : (⟨S850000, .i32⟩ : BufTy).Contents (Elt F) → (⟨S850000x1, .i32⟩ : BufTy).Contents (Elt F)),
    ternary main_v141 main_v142 main_v140 main_v143 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_32 (constant S_ .f32 0x00000000#32),
    unary main_cst_32 main_v144 (broadcastInDim S50000 ![] bcast_S_S50000 : (⟨S_, .f32⟩ : BufTy).Contents (Elt F) → (⟨S50000, .f32⟩ : BufTy).Contents (Elt F)),
    binary main_v143 main_v144 main_v145 (cmpf .ogt : (⟨S50000, .f32⟩ : BufTy).Contents (Elt F) → (⟨S50000, .f32⟩ : BufTy).Contents (Elt F) → (⟨S50000, .i1⟩ : BufTy).Contents (Elt F)),
    unary main_v143 main_v146 (Host.rsqrt : (⟨S50000, .f32⟩ : BufTy).Contents (Elt F) → (⟨S50000, .f32⟩ : BufTy).Contents (Elt F)),
    nullary main_cst_33 (constant S_ .f32 0x00000000#32),
    TRef.unary (TRef.of (T := ⟨S_, .f32⟩) main_cst_33) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v145) (TRef.of (T := ⟨S50000, .f32⟩) main_v146) (TRef.of (T := ⟨S50000, .f32⟩) main_call4_v1) (TRef.of (T := ⟨S50000, .f32⟩) main_v147) select,
    nullary main_c_34 (constantI S_ 32 0#32),
    unary main_c_34 main_v148 (broadcastInDim S850000 ![] bcast_S_S850000 : (⟨S_, .i32⟩ : BufTy).Contents (Elt F) → (⟨S850000, .i32⟩ : BufTy).Contents (Elt F)),
    binary main_v138 main_v148 main_v149 (cmpi .slt : (⟨S850000, .i32⟩ : BufTy).Contents (Elt F) → (⟨S850000, .i32⟩ : BufTy).Contents (Elt F) → (⟨S850000, .i1⟩ : BufTy).Contents (Elt F)),
    nullary main_c_35 (constantI S_ 32 50000#32),
    unary main_c_35 main_v150 (broadcastInDim S850000 ![] bcast_S_S850000 : (⟨S_, .i32⟩ : BufTy).Contents (Elt F) → (⟨S850000, .i32⟩ : BufTy).Contents (Elt F)),
    binary main_v138 main_v150 main_v151 (addi : (⟨S850000, .i32⟩ : BufTy).Contents (Elt F) → (⟨S850000, .i32⟩ : BufTy).Contents (Elt F) → (⟨S850000, .i32⟩ : BufTy).Contents (Elt F)),
    ternary main_v149 main_v151 main_v138 main_v152 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v152 main_v153 (broadcastInDim S850000x1 ![0] bcast_S850000_S850000x1_0 : (⟨S850000, .i32⟩ : BufTy).Contents (Elt F) → (⟨S850000x1, .i32⟩ : BufTy).Contents (Elt F)),
    binary main_v147 main_v153 main_v154 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_36 (constantI S_ 32 0#32),
    unary main_c_36 main_v155 (broadcastInDim S850000 ![] bcast_S_S850000 : (⟨S_, .i32⟩ : BufTy).Contents (Elt F) → (⟨S850000, .i32⟩ : BufTy).Contents (Elt F)),
    binary main_v139 main_v155 main_v156 (cmpi .slt : (⟨S850000, .i32⟩ : BufTy).Contents (Elt F) → (⟨S850000, .i32⟩ : BufTy).Contents (Elt F) → (⟨S850000, .i1⟩ : BufTy).Contents (Elt F)),
    nullary main_c_37 (constantI S_ 32 50000#32),
    unary main_c_37 main_v157 (broadcastInDim S850000 ![] bcast_S_S850000 : (⟨S_, .i32⟩ : BufTy).Contents (Elt F) → (⟨S850000, .i32⟩ : BufTy).Contents (Elt F)),
    binary main_v139 main_v157 main_v158 (addi : (⟨S850000, .i32⟩ : BufTy).Contents (Elt F) → (⟨S850000, .i32⟩ : BufTy).Contents (Elt F) → (⟨S850000, .i32⟩ : BufTy).Contents (Elt F)),
    ternary main_v156 main_v158 main_v139 main_v159 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v159 main_v160 (broadcastInDim S850000x1 ![0] bcast_S850000_S850000x1_0 : (⟨S850000, .i32⟩ : BufTy).Contents (Elt F) → (⟨S850000x1, .i32⟩ : BufTy).Contents (Elt F)),
    binary main_v147 main_v160 main_v161 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v154 main_v161 main_v162 (mulf : (⟨S850000, .f32⟩ : BufTy).Contents (Elt F) → (⟨S850000, .f32⟩ : BufTy).Contents (Elt F) → (⟨S850000, .f32⟩ : BufTy).Contents (Elt F)) ]
/-- The buffers those operations write. -/
abbrev wr6 : List (Ref sig .tc) := [main_v136, main_v137, main_v138, main_v139, main_cst_30, main_v140, main_cst_31, main_v141, main_v142, main_v143, main_cst_32, main_v144, main_v145, main_v146, main_cst_33, main_call4_v0, main_call4_v1, main_v147, main_c_34, main_v148, main_v149, main_c_35, main_v150, main_v151, main_v152, main_v153, main_v154, main_c_36, main_v155, main_v156, main_c_37, main_v157, main_v158, main_v159, main_v160, main_v161, main_v162]

/-- Operations 214 to 229 of the program, in order. -/
abbrev seg7 : List (HloOp τ sig (Elt F)) :=
  [ nullary main_c_38 (constantI S_ 32 0#32),
    unary main_c_38 main_v163 (broadcastInDim S850000 ![] bcast_S_S850000 : (⟨S_, .i32⟩ : BufTy).Contents (Elt F) → (⟨S850000, .i32⟩ : BufTy).Contents (Elt F)),
    binary main_v138 main_v163 main_v164 (cmpi .slt : (⟨S850000, .i32⟩ : BufTy).Contents (Elt F) → (⟨S850000, .i32⟩ : BufTy).Contents (Elt F) → (⟨S850000, .i1⟩ : BufTy).Contents (Elt F)),
    nullary main_c_39 (constantI S_ 32 50000#32),
    unary main_c_39 main_v165 (broadcastInDim S850000 ![] bcast_S_S850000 : (⟨S_, .i32⟩ : BufTy).Contents (Elt F) → (⟨S850000, .i32⟩ : BufTy).Contents (Elt F)),
    binary main_v138 main_v165 main_v166 (addi : (⟨S850000, .i32⟩ : BufTy).Contents (Elt F) → (⟨S850000, .i32⟩ : BufTy).Contents (Elt F) → (⟨S850000, .i32⟩ : BufTy).Contents (Elt F)),
    ternary main_v164 main_v166 main_v138 main_v167 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v167 main_v168 (broadcastInDim S850000x1 ![0] bcast_S850000_S850000x1_0 : (⟨S850000, .i32⟩ : BufTy).Contents (Elt F) → (⟨S850000x1, .i32⟩ : BufTy).Contents (Elt F)),
    binary main_v136 main_v168 main_v169 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v162 main_v170 (broadcastInDim S850000x1 ![0] bcast_S850000_S850000x1_0 : (⟨S850000, .f32⟩ : BufTy).Contents (Elt F) → (⟨S850000x1, .f32⟩ : BufTy).Contents (Elt F)),
    unary main_v170 main_v171 (broadcastInDim S850000x128 ![0, 1] bcast_S850000x1_S850000x128_0_1 : (⟨S850000x1, .f32⟩ : BufTy).Contents (Elt F) → (⟨S850000x128, .f32⟩ : BufTy).Contents (Elt F)),
    binary main_v169 main_v171 main_v172 (mulf : (⟨S850000x128, .f32⟩ : BufTy).Contents (Elt F) → (⟨S850000x128, .f32⟩ : BufTy).Contents (Elt F) → (⟨S850000x128, .f32⟩ : BufTy).Contents (Elt F)),
    nullary main_cst_40 (constant S_ .f32 0x00000000#32),
    unary main_cst_40 main_v173 (broadcastInDim S50000x128 ![] bcast_S_S50000x128 : (⟨S_, .f32⟩ : BufTy).Contents (Elt F) → (⟨S50000x128, .f32⟩ : BufTy).Contents (Elt F)),
    unary main_v139 main_v174 (broadcastInDim S850000x1 ![0] bcast_S850000_S850000x1_0 : (⟨S850000, .i32⟩ : BufTy).Contents (Elt F) → (⟨S850000x1, .i32⟩ : BufTy).Contents (Elt F)),
    ternary main_v173 main_v174 main_v172 main_v175 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
/-- The buffers those operations write. -/
abbrev wr7 : List (Ref sig .tc) := [main_c_38, main_v163, main_v164, main_c_39, main_v165, main_v166, main_v167, main_v168, main_v169, main_v170, main_v171, main_v172, main_cst_40, main_v173, main_v174, main_v175]

/-- Operations 230 to 262 of the program, in order. -/
abbrev seg8 : List (HloOp τ sig (Elt F)) :=
  [ unary main_arg11 main_v176 (broadcastInDim S1x128 ![1] bcast_S128_S1x128_1 : (⟨S128, .f32⟩ : BufTy).Contents (Elt F) → (⟨S1x128, .f32⟩ : BufTy).Contents (Elt F)),
    unary main_v176 main_v177 (broadcastInDim S50000x128 ![0, 1] bcast_S1x128_S50000x128_0_1 : (⟨S1x128, .f32⟩ : BufTy).Contents (Elt F) → (⟨S50000x128, .f32⟩ : BufTy).Contents (Elt F)),
    binary main_v175 main_v177 main_v178 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v178) (TRef.of (T := ⟨S50000x128, .f32⟩) main_call5_v0) (TRef.of (T := ⟨S50000x128, .f32⟩) main_v179) maximumf,
    nullary main_cst_41 (constant S_ .f32 0x00000000#32),
    binary main_v179 main_cst_41 main_v180 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v180 main_v181 (broadcastInDim S50000x1 ![0] bcast_S50000_S50000x1_0 : (⟨S50000, .f32⟩ : BufTy).Contents (Elt F) → (⟨S50000x1, .f32⟩ : BufTy).Contents (Elt F)),
    nullary main_cst_42 (constant S_ .f32 0x43000000#32),
    unary main_cst_42 main_v182 (broadcastInDim S50000x1 ![] bcast_S_S50000x1 : (⟨S_, .f32⟩ : BufTy).Contents (Elt F) → (⟨S50000x1, .f32⟩ : BufTy).Contents (Elt F)),
    binary main_v181 main_v182 main_v183 (Host.divf : (⟨S50000x1, .f32⟩ : BufTy).Contents (Elt F) → (⟨S50000x1, .f32⟩ : BufTy).Contents (Elt F) → (⟨S50000x1, .f32⟩ : BufTy).Contents (Elt F)),
    unary main_v183 main_v184 (broadcastInDim S50000x128 ![0, 1] bcast_S50000x1_S50000x128_0_1 : (⟨S50000x1, .f32⟩ : BufTy).Contents (Elt F) → (⟨S50000x128, .f32⟩ : BufTy).Contents (Elt F)),
    binary main_v179 main_v184 main_v185 (subf : (⟨S50000x128, .f32⟩ : BufTy).Contents (Elt F) → (⟨S50000x128, .f32⟩ : BufTy).Contents (Elt F) → (⟨S50000x128, .f32⟩ : BufTy).Contents (Elt F)),
    binary main_v185 main_v185 main_v186 (mulf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x00000000#32),
    binary main_v186 main_cst_43 main_v187 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v187 main_v188 (broadcastInDim S50000x1 ![0] bcast_S50000_S50000x1_0 : (⟨S50000, .f32⟩ : BufTy).Contents (Elt F) → (⟨S50000x1, .f32⟩ : BufTy).Contents (Elt F)),
    nullary main_cst_44 (constant S_ .f32 0x43000000#32),
    unary main_cst_44 main_v189 (broadcastInDim S50000x1 ![] bcast_S_S50000x1 : (⟨S_, .f32⟩ : BufTy).Contents (Elt F) → (⟨S50000x1, .f32⟩ : BufTy).Contents (Elt F)),
    binary main_v188 main_v189 main_v190 (Host.divf : (⟨S50000x1, .f32⟩ : BufTy).Contents (Elt F) → (⟨S50000x1, .f32⟩ : BufTy).Contents (Elt F) → (⟨S50000x1, .f32⟩ : BufTy).Contents (Elt F)),
    nullary main_cst_45 (constant S_ .f32 0x3727C5AC#32),
    unary main_cst_45 main_v191 (broadcastInDim S50000x1 ![] bcast_S_S50000x1 : (⟨S_, .f32⟩ : BufTy).Contents (Elt F) → (⟨S50000x1, .f32⟩ : BufTy).Contents (Elt F)),
    binary main_v190 main_v191 main_v192 (addf : (⟨S50000x1, .f32⟩ : BufTy).Contents (Elt F) → (⟨S50000x1, .f32⟩ : BufTy).Contents (Elt F) → (⟨S50000x1, .f32⟩ : BufTy).Contents (Elt F)),
    unary main_v192 main_v193 (Host.rsqrt : (⟨S50000x1, .f32⟩ : BufTy).Contents (Elt F) → (⟨S50000x1, .f32⟩ : BufTy).Contents (Elt F)),
    unary main_v193 main_v194 (broadcastInDim S50000x128 ![0, 1] bcast_S50000x1_S50000x128_0_1 : (⟨S50000x1, .f32⟩ : BufTy).Contents (Elt F) → (⟨S50000x128, .f32⟩ : BufTy).Contents (Elt F)),
    binary main_v185 main_v194 main_v195 (mulf : (⟨S50000x128, .f32⟩ : BufTy).Contents (Elt F) → (⟨S50000x128, .f32⟩ : BufTy).Contents (Elt F) → (⟨S50000x128, .f32⟩ : BufTy).Contents (Elt F)),
    unary main_arg12 main_v196 (broadcastInDim S1x128 ![1] bcast_S128_S1x128_1 : (⟨S128, .f32⟩ : BufTy).Contents (Elt F) → (⟨S1x128, .f32⟩ : BufTy).Contents (Elt F)),
    unary main_v196 main_v197 (broadcastInDim S50000x128 ![0, 1] bcast_S1x128_S50000x128_0_1 : (⟨S1x128, .f32⟩ : BufTy).Contents (Elt F) → (⟨S50000x128, .f32⟩ : BufTy).Contents (Elt F)),
    binary main_v195 main_v197 main_v198 (mulf : (⟨S50000x128, .f32⟩ : BufTy).Contents (Elt F) → (⟨S50000x128, .f32⟩ : BufTy).Contents (Elt F) → (⟨S50000x128, .f32⟩ : BufTy).Contents (Elt F)),
    unary main_arg13 main_v199 (broadcastInDim S1x128 ![1] bcast_S128_S1x128_1 : (⟨S128, .f32⟩ : BufTy).Contents (Elt F) → (⟨S1x128, .f32⟩ : BufTy).Contents (Elt F)),
    unary main_v199 main_v200 (broadcastInDim S50000x128 ![0, 1] bcast_S1x128_S50000x128_0_1 : (⟨S1x128, .f32⟩ : BufTy).Contents (Elt F) → (⟨S50000x128, .f32⟩ : BufTy).Contents (Elt F)),
    binary main_v198 main_v200 main_v201 (addf : (⟨S50000x128, .f32⟩ : BufTy).Contents (Elt F) → (⟨S50000x128, .f32⟩ : BufTy).Contents (Elt F) → (⟨S50000x128, .f32⟩ : BufTy).Contents (Elt F)) ]
/-- The buffers those operations write. -/
abbrev wr8 : List (Ref sig .tc) := [main_v176, main_v177, main_v178, main_call5_cst, main_call5_v0, main_v179, main_cst_41, main_v180, main_v181, main_cst_42, main_v182, main_v183, main_v184, main_v185, main_v186, main_cst_43, main_v187, main_v188, main_cst_44, main_v189, main_v190, main_cst_45, main_v191, main_v192, main_v193, main_v194, main_v195, main_v196, main_v197, main_v198, main_v199, main_v200, main_v201]

/-- The program's operations are the nine stretches, end to end. -/
theorem ops_split : (ops : List (HloOp τ sig (Elt F))) = seg0 ++ (seg1 ++ (seg2 ++ (seg3 ++ (seg4 ++ (seg5 ++ (seg6 ++ (seg7 ++ seg8))))))) := rfl

/-! ## What a stretch does not write, it keeps -/

theorem wr0_holds : (seg0 : List (HloOp τ sig (Elt F))).Forall fun op => op.writes ⊆ (wr0.map (Proc.devRef (τ := τ) .tc)).toFinset := by
  simp only [seg0, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 1 to 41 do not write holds after them what it held before. -/
theorem kept0 (V : Valuation τ sig (Elt F)) (b : Ref sig .tc) (hb : b ∉ wr0) :
    after seg0 V (Proc.devRef .tc b) = V (Proc.devRef .tc b) :=
  after_of_writes_sub seg0 V wr0_holds hb

theorem wr1_holds : (seg1 : List (HloOp τ sig (Elt F))).Forall fun op => op.writes ⊆ (wr1.map (Proc.devRef (τ := τ) .tc)).toFinset := by
  simp only [seg1, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 42 to 57 do not write holds after them what it held before. -/
theorem kept1 (V : Valuation τ sig (Elt F)) (b : Ref sig .tc) (hb : b ∉ wr1) :
    after seg1 V (Proc.devRef .tc b) = V (Proc.devRef .tc b) :=
  after_of_writes_sub seg1 V wr1_holds hb

theorem wr2_holds : (seg2 : List (HloOp τ sig (Elt F))).Forall fun op => op.writes ⊆ (wr2.map (Proc.devRef (τ := τ) .tc)).toFinset := by
  simp only [seg2, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 58 to 90 do not write holds after them what it held before. -/
theorem kept2 (V : Valuation τ sig (Elt F)) (b : Ref sig .tc) (hb : b ∉ wr2) :
    after seg2 V (Proc.devRef .tc b) = V (Proc.devRef .tc b) :=
  after_of_writes_sub seg2 V wr2_holds hb

theorem wr3_holds : (seg3 : List (HloOp τ sig (Elt F))).Forall fun op => op.writes ⊆ (wr3.map (Proc.devRef (τ := τ) .tc)).toFinset := by
  simp only [seg3, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 91 to 127 do not write holds after them what it held before. -/
theorem kept3 (V : Valuation τ sig (Elt F)) (b : Ref sig .tc) (hb : b ∉ wr3) :
    after seg3 V (Proc.devRef .tc b) = V (Proc.devRef .tc b) :=
  after_of_writes_sub seg3 V wr3_holds hb

theorem wr4_holds : (seg4 : List (HloOp τ sig (Elt F))).Forall fun op => op.writes ⊆ (wr4.map (Proc.devRef (τ := τ) .tc)).toFinset := by
  simp only [seg4, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 128 to 143 do not write holds after them what it held before. -/
theorem kept4 (V : Valuation τ sig (Elt F)) (b : Ref sig .tc) (hb : b ∉ wr4) :
    after seg4 V (Proc.devRef .tc b) = V (Proc.devRef .tc b) :=
  after_of_writes_sub seg4 V wr4_holds hb

theorem wr5_holds : (seg5 : List (HloOp τ sig (Elt F))).Forall fun op => op.writes ⊆ (wr5.map (Proc.devRef (τ := τ) .tc)).toFinset := by
  simp only [seg5, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 144 to 176 do not write holds after them what it held before. -/
theorem kept5 (V : Valuation τ sig (Elt F)) (b : Ref sig .tc) (hb : b ∉ wr5) :
    after seg5 V (Proc.devRef .tc b) = V (Proc.devRef .tc b) :=
  after_of_writes_sub seg5 V wr5_holds hb

theorem wr6_holds : (seg6 : List (HloOp τ sig (Elt F))).Forall fun op => op.writes ⊆ (wr6.map (Proc.devRef (τ := τ) .tc)).toFinset := by
  simp only [seg6, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 177 to 213 do not write holds after them what it held before. -/
theorem kept6 (V : Valuation τ sig (Elt F)) (b : Ref sig .tc) (hb : b ∉ wr6) :
    after seg6 V (Proc.devRef .tc b) = V (Proc.devRef .tc b) :=
  after_of_writes_sub seg6 V wr6_holds hb

theorem wr7_holds : (seg7 : List (HloOp τ sig (Elt F))).Forall fun op => op.writes ⊆ (wr7.map (Proc.devRef (τ := τ) .tc)).toFinset := by
  simp only [seg7, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 214 to 229 do not write holds after them what it held before. -/
theorem kept7 (V : Valuation τ sig (Elt F)) (b : Ref sig .tc) (hb : b ∉ wr7) :
    after seg7 V (Proc.devRef .tc b) = V (Proc.devRef .tc b) :=
  after_of_writes_sub seg7 V wr7_holds hb

theorem wr8_holds : (seg8 : List (HloOp τ sig (Elt F))).Forall fun op => op.writes ⊆ (wr8.map (Proc.devRef (τ := τ) .tc)).toFinset := by
  simp only [seg8, List.Forall, nullary_writes, unary_writes, binary_writes, ternary_writes, quaternary_writes, reshape_writes, binaryIndexed_writes, Finset.singleton_subset_iff]
  repeat' apply And.intro
  all_goals exact List.mem_toFinset.mpr (List.mem_map.mpr ⟨_, by decide, rfl⟩)
/-- A buffer that operations 230 to 262 do not write holds after them what it held before. -/
theorem kept8 (V : Valuation τ sig (Elt F)) (b : Ref sig .tc) (hb : b ∉ wr8) :
    after seg8 V (Proc.devRef .tc b) = V (Proc.devRef .tc b) :=
  after_of_writes_sub seg8 V wr8_holds hb

/-! ## The contents between the stretches -/

variable (m : (ℓ : Loc nD τ sig) → Buf (Elt F) ℓ) (c : Dev nD)

/-- The buffers' contents at the launch. -/
abbrev R0 : Valuation τ sig (Elt F) := launchContents m c
/-- The buffers' contents after operation 41. -/
def R1 : Valuation τ sig (Elt F) := after seg0 (R0 m c)
/-- The buffers' contents after operation 57. -/
def R2 : Valuation τ sig (Elt F) := after seg1 (R1 m c)
/-- The buffers' contents after operation 90. -/
def R3 : Valuation τ sig (Elt F) := after seg2 (R2 m c)
/-- The buffers' contents after operation 127. -/
def R4 : Valuation τ sig (Elt F) := after seg3 (R3 m c)
/-- The buffers' contents after operation 143. -/
def R5 : Valuation τ sig (Elt F) := after seg4 (R4 m c)
/-- The buffers' contents after operation 176. -/
def R6 : Valuation τ sig (Elt F) := after seg5 (R5 m c)
/-- The buffers' contents after operation 213. -/
def R7 : Valuation τ sig (Elt F) := after seg6 (R6 m c)
/-- The buffers' contents after operation 229. -/
def R8 : Valuation τ sig (Elt F) := after seg7 (R7 m c)
/-- The buffers' contents after operation 262. -/
def R9 : Valuation τ sig (Elt F) := after seg8 (R8 m c)

/-- The contents after the whole program are the contents after the ninth stretch. -/
theorem after_ops : after (ops : List (HloOp τ sig (Elt F))) (launchContents m c) = R9 m c := by
  rw [ops_split]
  simp only [after_append]
  rfl

/-- A buffer none of the first 41 operations writes still holds its launch contents after them. -/
theorem launch1 (b : Ref sig .tc) (h0 : b ∉ wr0) : R1 m c (Proc.devRef .tc b) = launchContents m c (Proc.devRef .tc b) :=
  (kept0 (R0 m c) b h0)
/-- A buffer none of the first 57 operations writes still holds its launch contents after them. -/
theorem launch2 (b : Ref sig .tc) (h0 : b ∉ wr0) (h1 : b ∉ wr1) : R2 m c (Proc.devRef .tc b) = launchContents m c (Proc.devRef .tc b) :=
  ((kept1 (R1 m c) b h1).trans (kept0 (R0 m c) b h0))
/-- A buffer none of the first 90 operations writes still holds its launch contents after them. -/
theorem launch3 (b : Ref sig .tc) (h0 : b ∉ wr0) (h1 : b ∉ wr1) (h2 : b ∉ wr2) : R3 m c (Proc.devRef .tc b) = launchContents m c (Proc.devRef .tc b) :=
  (((kept2 (R2 m c) b h2).trans (kept1 (R1 m c) b h1)).trans (kept0 (R0 m c) b h0))
/-- A buffer none of the first 127 operations writes still holds its launch contents after them. -/
theorem launch4 (b : Ref sig .tc) (h0 : b ∉ wr0) (h1 : b ∉ wr1) (h2 : b ∉ wr2) (h3 : b ∉ wr3) : R4 m c (Proc.devRef .tc b) = launchContents m c (Proc.devRef .tc b) :=
  ((((kept3 (R3 m c) b h3).trans (kept2 (R2 m c) b h2)).trans (kept1 (R1 m c) b h1)).trans (kept0 (R0 m c) b h0))
/-- A buffer none of the first 143 operations writes still holds its launch contents after them. -/
theorem launch5 (b : Ref sig .tc) (h0 : b ∉ wr0) (h1 : b ∉ wr1) (h2 : b ∉ wr2) (h3 : b ∉ wr3) (h4 : b ∉ wr4) : R5 m c (Proc.devRef .tc b) = launchContents m c (Proc.devRef .tc b) :=
  (((((kept4 (R4 m c) b h4).trans (kept3 (R3 m c) b h3)).trans (kept2 (R2 m c) b h2)).trans (kept1 (R1 m c) b h1)).trans (kept0 (R0 m c) b h0))
/-- A buffer none of the first 176 operations writes still holds its launch contents after them. -/
theorem launch6 (b : Ref sig .tc) (h0 : b ∉ wr0) (h1 : b ∉ wr1) (h2 : b ∉ wr2) (h3 : b ∉ wr3) (h4 : b ∉ wr4) (h5 : b ∉ wr5) : R6 m c (Proc.devRef .tc b) = launchContents m c (Proc.devRef .tc b) :=
  ((((((kept5 (R5 m c) b h5).trans (kept4 (R4 m c) b h4)).trans (kept3 (R3 m c) b h3)).trans (kept2 (R2 m c) b h2)).trans (kept1 (R1 m c) b h1)).trans (kept0 (R0 m c) b h0))
/-- A buffer none of the first 213 operations writes still holds its launch contents after them. -/
theorem launch7 (b : Ref sig .tc) (h0 : b ∉ wr0) (h1 : b ∉ wr1) (h2 : b ∉ wr2) (h3 : b ∉ wr3) (h4 : b ∉ wr4) (h5 : b ∉ wr5) (h6 : b ∉ wr6) : R7 m c (Proc.devRef .tc b) = launchContents m c (Proc.devRef .tc b) :=
  (((((((kept6 (R6 m c) b h6).trans (kept5 (R5 m c) b h5)).trans (kept4 (R4 m c) b h4)).trans (kept3 (R3 m c) b h3)).trans (kept2 (R2 m c) b h2)).trans (kept1 (R1 m c) b h1)).trans (kept0 (R0 m c) b h0))
/-- A buffer none of the first 229 operations writes still holds its launch contents after them. -/
theorem launch8 (b : Ref sig .tc) (h0 : b ∉ wr0) (h1 : b ∉ wr1) (h2 : b ∉ wr2) (h3 : b ∉ wr3) (h4 : b ∉ wr4) (h5 : b ∉ wr5) (h6 : b ∉ wr6) (h7 : b ∉ wr7) : R8 m c (Proc.devRef .tc b) = launchContents m c (Proc.devRef .tc b) :=
  ((((((((kept7 (R7 m c) b h7).trans (kept6 (R6 m c) b h6)).trans (kept5 (R5 m c) b h5)).trans (kept4 (R4 m c) b h4)).trans (kept3 (R3 m c) b h3)).trans (kept2 (R2 m c) b h2)).trans (kept1 (R1 m c) b h1)).trans (kept0 (R0 m c) b h0))
/-- A buffer none of the first 262 operations writes still holds its launch contents after them. -/
theorem launch9 (b : Ref sig .tc) (h0 : b ∉ wr0) (h1 : b ∉ wr1) (h2 : b ∉ wr2) (h3 : b ∉ wr3) (h4 : b ∉ wr4) (h5 : b ∉ wr5) (h6 : b ∉ wr6) (h7 : b ∉ wr7) (h8 : b ∉ wr8) : R9 m c (Proc.devRef .tc b) = launchContents m c (Proc.devRef .tc b) :=
  (((((((((kept8 (R8 m c) b h8).trans (kept7 (R7 m c) b h7)).trans (kept6 (R6 m c) b h6)).trans (kept5 (R5 m c) b h5)).trans (kept4 (R4 m c) b h4)).trans (kept3 (R3 m c) b h3)).trans (kept2 (R2 m c) b h2)).trans (kept1 (R1 m c) b h1)).trans (kept0 (R0 m c) b h0))

/-! ## Each live buffer holds its stage -/

/-! ### After operation 41 -/
theorem at1_v1 : R1 m c (Proc.devRef .tc main_v1) = val_main_v1 (F := F) (m ((c.tc : Thread nD τ).loc main_arg1)) := by
  show after seg0 (R0 m c) (Proc.devRef .tc main_v1) = _
  after_results_simp
  finish_reads
  rfl
theorem at1_v3 : R1 m c (Proc.devRef .tc main_v3) = val_main_v3 (F := F) (m ((c.tc : Thread nD τ).loc main_arg1)) := by
  show after seg0 (R0 m c) (Proc.devRef .tc main_v3) = _
  after_results_simp
  finish_reads
  rfl
theorem at1_v4 : R1 m c (Proc.devRef .tc main_v4) = val_main_v4 (F := F) (m ((c.tc : Thread nD τ).loc main_arg0)) (m ((c.tc : Thread nD τ).loc main_arg2)) := by
  show after seg0 (R0 m c) (Proc.devRef .tc main_v4) = _
  after_results_simp
  finish_reads
  rfl
theorem at1_v6 : R1 m c (Proc.devRef .tc main_v6) = val_main_v6 (F := F) (m ((c.tc : Thread nD τ).loc main_arg1)) := by
  show after seg0 (R0 m c) (Proc.devRef .tc main_v6) = _
  after_results_simp
  finish_reads
  rfl
theorem at1_v7 : R1 m c (Proc.devRef .tc main_v7) = val_main_v7 (F := F) (m ((c.tc : Thread nD τ).loc main_arg1)) := by
  show after seg0 (R0 m c) (Proc.devRef .tc main_v7) = _
  after_results_simp
  finish_reads
  rfl
theorem at1_v30 : R1 m c (Proc.devRef .tc main_v30) = val_main_v30 (F := F) (m ((c.tc : Thread nD τ).loc main_arg1)) := by
  show after seg0 (R0 m c) (Proc.devRef .tc main_v30) = _
  after_results_simp
  finish_reads
  rfl

/-! ### After operation 57 -/
theorem at2_v43 : R2 m c (Proc.devRef .tc main_v43) = val_main_v43 (F := F) (m ((c.tc : Thread nD τ).loc main_arg0)) (m ((c.tc : Thread nD τ).loc main_arg1)) (m ((c.tc : Thread nD τ).loc main_arg2)) := by
  show after seg1 (R1 m c) (Proc.devRef .tc main_v43) = _
  after_results_simp
  finish_reads
  rw [at1_v4 m c, at1_v6 m c, at1_v7 m c, at1_v30 m c]
  rfl
theorem at2_v1 : R2 m c (Proc.devRef .tc main_v1) = val_main_v1 (F := F) (m ((c.tc : Thread nD τ).loc main_arg1)) :=
  (kept1 (R1 m c) main_v1 (by decide)).trans (at1_v1 m c)
theorem at2_v3 : R2 m c (Proc.devRef .tc main_v3) = val_main_v3 (F := F) (m ((c.tc : Thread nD τ).loc main_arg1)) :=
  (kept1 (R1 m c) main_v3 (by decide)).trans (at1_v3 m c)

/-! ### After operation 90 -/
theorem at3_v69 : R3 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after seg2 (R2 m c) (Proc.devRef .tc main_v69) = _
  after_results_simp
  finish_reads
  rw [at2_v43 m c, launch2 m c main_arg3 (by decide) (by decide), launch2 m c main_arg4 (by decide) (by decide), launch2 m c main_arg5 (by decide) (by decide)]
  rfl
theorem at3_v1 : R3 m c (Proc.devRef .tc main_v1) = val_main_v1 (F := F) (m ((c.tc : Thread nD τ).loc main_arg1)) :=
  (kept2 (R2 m c) main_v1 (by decide)).trans (at2_v1 m c)
theorem at3_v3 : R3 m c (Proc.devRef .tc main_v3) = val_main_v3 (F := F) (m ((c.tc : Thread nD τ).loc main_arg1)) :=
  (kept2 (R2 m c) main_v3 (by decide)).trans (at2_v3 m c)

/-! ### After operation 127 -/
theorem at4_v70 : R4 m c (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after seg3 (R3 m c) (Proc.devRef .tc main_v70) = _
  after_results_simp
  finish_reads
  rw [at3_v69 m c, launch3 m c main_arg6 (by decide) (by decide) (by decide)]
  rfl
theorem at4_v72 : R4 m c (Proc.devRef .tc main_v72) = val_main_v72 (F := F) (m ((c.tc : Thread nD τ).loc main_arg1)) := by
  show after seg3 (R3 m c) (Proc.devRef .tc main_v72) = _
  after_results_simp
  finish_reads
  rw [at3_v1 m c]
  rfl
theorem at4_v73 : R4 m c (Proc.devRef .tc main_v73) = val_main_v73 (F := F) (m ((c.tc : Thread nD τ).loc main_arg1)) := by
  show after seg3 (R3 m c) (Proc.devRef .tc main_v73) = _
  after_results_simp
  finish_reads
  rw [at3_v3 m c]
  rfl
theorem at4_v96 : R4 m c (Proc.devRef .tc main_v96) = val_main_v96 (F := F) (m ((c.tc : Thread nD τ).loc main_arg1)) := by
  show after seg3 (R3 m c) (Proc.devRef .tc main_v96) = _
  after_results_simp
  finish_reads
  rw [at3_v1 m c, at3_v3 m c]
  rfl
theorem at4_v1 : R4 m c (Proc.devRef .tc main_v1) = val_main_v1 (F := F) (m ((c.tc : Thread nD τ).loc main_arg1)) :=
  (kept3 (R3 m c) main_v1 (by decide)).trans (at3_v1 m c)
theorem at4_v3 : R4 m c (Proc.devRef .tc main_v3) = val_main_v3 (F := F) (m ((c.tc : Thread nD τ).loc main_arg1)) :=
  (kept3 (R3 m c) main_v3 (by decide)).trans (at3_v3 m c)

/-! ### After operation 143 -/
theorem at5_v109 : R5 m c (Proc.devRef .tc main_v109) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after seg4 (R4 m c) (Proc.devRef .tc main_v109) = _
  after_results_simp
  finish_reads
  rw [at4_v70 m c, at4_v72 m c, at4_v73 m c, at4_v96 m c]
  rfl
theorem at5_v1 : R5 m c (Proc.devRef .tc main_v1) = val_main_v1 (F := F) (m ((c.tc : Thread nD τ).loc main_arg1)) :=
  (kept4 (R4 m c) main_v1 (by decide)).trans (at4_v1 m c)
theorem at5_v3 : R5 m c (Proc.devRef .tc main_v3) = val_main_v3 (F := F) (m ((c.tc : Thread nD τ).loc main_arg1)) :=
  (kept4 (R4 m c) main_v3 (by decide)).trans (at4_v3 m c)

/-! ### After operation 176 -/
theorem at6_v135 : R6 m c (Proc.devRef .tc main_v135) = val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after seg5 (R5 m c) (Proc.devRef .tc main_v135) = _
  after_results_simp
  finish_reads
  rw [at5_v109 m c, launch5 m c main_arg7 (by decide) (by decide) (by decide) (by decide) (by decide), launch5 m c main_arg8 (by decide) (by decide) (by decide) (by decide) (by decide), launch5 m c main_arg9 (by decide) (by decide) (by decide) (by decide) (by decide)]
  rfl
theorem at6_v1 : R6 m c (Proc.devRef .tc main_v1) = val_main_v1 (F := F) (m ((c.tc : Thread nD τ).loc main_arg1)) :=
  (kept5 (R5 m c) main_v1 (by decide)).trans (at5_v1 m c)
theorem at6_v3 : R6 m c (Proc.devRef .tc main_v3) = val_main_v3 (F := F) (m ((c.tc : Thread nD τ).loc main_arg1)) :=
  (kept5 (R5 m c) main_v3 (by decide)).trans (at5_v3 m c)

/-! ### After operation 213 -/
theorem at7_v136 : R7 m c (Proc.devRef .tc main_v136) = val_main_v136 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after seg6 (R6 m c) (Proc.devRef .tc main_v136) = _
  after_results_simp
  finish_reads
  rw [at6_v135 m c, launch6 m c main_arg10 (by decide) (by decide) (by decide) (by decide) (by decide) (by decide)]
  rfl
theorem at7_v138 : R7 m c (Proc.devRef .tc main_v138) = val_main_v138 (F := F) (m ((c.tc : Thread nD τ).loc main_arg1)) := by
  show after seg6 (R6 m c) (Proc.devRef .tc main_v138) = _
  after_results_simp
  finish_reads
  rw [at6_v1 m c]
  rfl
theorem at7_v139 : R7 m c (Proc.devRef .tc main_v139) = val_main_v139 (F := F) (m ((c.tc : Thread nD τ).loc main_arg1)) := by
  show after seg6 (R6 m c) (Proc.devRef .tc main_v139) = _
  after_results_simp
  finish_reads
  rw [at6_v3 m c]
  rfl
theorem at7_v162 : R7 m c (Proc.devRef .tc main_v162) = val_main_v162 (F := F) (m ((c.tc : Thread nD τ).loc main_arg1)) := by
  show after seg6 (R6 m c) (Proc.devRef .tc main_v162) = _
  after_results_simp
  finish_reads
  rw [at6_v1 m c, at6_v3 m c]
  rfl

/-! ### After operation 229 -/
theorem at8_v175 : R8 m c (Proc.devRef .tc main_v175) = val_main_v175 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after seg7 (R7 m c) (Proc.devRef .tc main_v175) = _
  after_results_simp
  finish_reads
  rw [at7_v136 m c, at7_v138 m c, at7_v139 m c, at7_v162 m c]
  rfl

/-! ### After operation 262 -/
theorem at9_v201 : R9 m c (Proc.devRef .tc main_v201) = val_main_v201 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show after seg8 (R8 m c) (Proc.devRef .tc main_v201) = _
  after_results_simp
  finish_reads
  rw [at8_v175 m c, launch8 m c main_arg11 (by decide) (by decide) (by decide) (by decide) (by decide) (by decide) (by decide) (by decide), launch8 m c main_arg12 (by decide) (by decide) (by decide) (by decide) (by decide) (by decide) (by decide) (by decide), launch8 m c main_arg13 (by decide) (by decide) (by decide) (by decide) (by decide) (by decide) (by decide) (by decide)]
  rfl

/-! ## The run -/

/-- Every weakly fair execution of the reference terminates; its result buffer then holds the last stage of the
    arguments, and every argument array what it was launched with. -/
theorem run (ρ : Dev nD → PrngReg) :
    θ_run defs (onTc (τ := τ) (main (F := F))) ⟨m, fun _ => 0, ρ⟩ fun r => ∀ c : Dev nD,
      r.2.mem ((c.tc : Thread nD τ).loc main_v201) = val_main_v201 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v201).trans (by rw [after_ops]; exact at9_v201 m c),
      (h c main_arg0).trans (by rw [after_ops]; exact launch9 m c main_arg0 (by decide) (by decide) (by decide) (by decide) (by decide) (by decide) (by decide) (by decide) (by decide)),
      (h c main_arg1).trans (by rw [after_ops]; exact launch9 m c main_arg1 (by decide) (by decide) (by decide) (by decide) (by decide) (by decide) (by decide) (by decide) (by decide)),
      (h c main_arg2).trans (by rw [after_ops]; exact launch9 m c main_arg2 (by decide) (by decide) (by decide) (by decide) (by decide) (by decide) (by decide) (by decide) (by decide)),
      (h c main_arg3).trans (by rw [after_ops]; exact launch9 m c main_arg3 (by decide) (by decide) (by decide) (by decide) (by decide) (by decide) (by decide) (by decide) (by decide)),
      (h c main_arg4).trans (by rw [after_ops]; exact launch9 m c main_arg4 (by decide) (by decide) (by decide) (by decide) (by decide) (by decide) (by decide) (by decide) (by decide)),
      (h c main_arg5).trans (by rw [after_ops]; exact launch9 m c main_arg5 (by decide) (by decide) (by decide) (by decide) (by decide) (by decide) (by decide) (by decide) (by decide)),
      (h c main_arg6).trans (by rw [after_ops]; exact launch9 m c main_arg6 (by decide) (by decide) (by decide) (by decide) (by decide) (by decide) (by decide) (by decide) (by decide)),
      (h c main_arg7).trans (by rw [after_ops]; exact launch9 m c main_arg7 (by decide) (by decide) (by decide) (by decide) (by decide) (by decide) (by decide) (by decide) (by decide)),
      (h c main_arg8).trans (by rw [after_ops]; exact launch9 m c main_arg8 (by decide) (by decide) (by decide) (by decide) (by decide) (by decide) (by decide) (by decide) (by decide)),
      (h c main_arg9).trans (by rw [after_ops]; exact launch9 m c main_arg9 (by decide) (by decide) (by decide) (by decide) (by decide) (by decide) (by decide) (by decide) (by decide)),
      (h c main_arg10).trans (by rw [after_ops]; exact launch9 m c main_arg10 (by decide) (by decide) (by decide) (by decide) (by decide) (by decide) (by decide) (by decide) (by decide)),
      (h c main_arg11).trans (by rw [after_ops]; exact launch9 m c main_arg11 (by decide) (by decide) (by decide) (by decide) (by decide) (by decide) (by decide) (by decide) (by decide)),
      (h c main_arg12).trans (by rw [after_ops]; exact launch9 m c main_arg12 (by decide) (by decide) (by decide) (by decide) (by decide) (by decide) (by decide) (by decide) (by decide)),
      (h c main_arg13).trans (by rw [after_ops]; exact launch9 m c main_arg13 (by decide) (by decide) (by decide) (by decide) (by decide) (by decide) (by decide) (by decide) (by decide))⟩)
    (run_seq scopedRefs_eq scopedSems_eq defs main (fun _ => ops) main_eq (fun _ => ops_sub) m ρ)

end Cert.ReferenceIdeal.RunP

end
-- ==== Proof.RefPost.lean ====
/-
  The reference's last stage of each of its three layers, read at an index.

  Each layer ends the same way. To the array of summed neighbour rows it adds a bias vector, keeps the positive part,
  and normalises every row over its lanes: the row's mean is the lanes' sum divided by the lane count, the variance is
  the mean of the centred row's squares, and the centred row is multiplied by the inverse root of the variance plus
  eps, then by a learned scale, and a learned shift is added. The program spells this as a chain of whole-array
  operations, with the vectors and the per-row columns spread over the array before each pointwise step. Read at an
  index (r, q), every spread vector is its lane q and every spread column is its row r, so the chain collapses to the
  row-by-row formula of the specification: the entry depends on row r of the layer's input only.

  The steps below follow the chain in order: the three spread vectors; the positive part; the mean; the centred row;
  the variance; the finished entry. The three layers differ in the lane count (256, 256, 128) and in nothing else.
-/
import proofs.«119902_j28243704939123_1_alg».proof.Proof.RefRead
import proofs.«119902_j28243704939123_1_alg».proof.Proof.Spec

noncomputable section

open scoped BigOperators

namespace Cert.ReferenceIdeal.RefValue

open Idealize.ShloMosaic Idealize.ShloMosaic.ValueIdx Cert.ReferenceIdeal Cert.ReferenceIdeal.ReadP Cert.Layer

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 x4 x5 : (⟨S256, .f32⟩ : BufTy).Contents (Elt Ideal))
  (x6 : (⟨S256x256, .f32⟩ : BufTy).Contents (Elt Ideal)) (x7 x8 x9 : (⟨S256, .f32⟩ : BufTy).Contents (Elt Ideal))
  (x10 : (⟨S256x128, .f32⟩ : BufTy).Contents (Elt Ideal)) (x11 x12 x13 : (⟨S128, .f32⟩ : BufTy).Contents (Elt Ideal))

/-! ## The first layer: 256 lanes -/

/-- The bias vector spread over the rows: entry (r, k) is lane k of the vector. -/
theorem bias1 (r : Fin 50000) (k : Fin 256) : val_main_v45 (F := Ideal) x3 (ix2 r k) = x3 (ix1 k) := by
  rewrite [val_main_v45_apply, val_main_v44_apply]
  exact congrArg x3 (funext fun a => Fin.ext (by match a with | ⟨0, _⟩ => rfl))

/-- The learned scale spread over the rows: entry (r, k) is lane k of the vector. -/
theorem scale1 (r : Fin 50000) (k : Fin 256) : val_main_v65 (F := Ideal) x4 (ix2 r k) = x4 (ix1 k) := by
  rewrite [val_main_v65_apply, val_main_v64_apply]
  exact congrArg x4 (funext fun a => Fin.ext (by match a with | ⟨0, _⟩ => rfl))

/-- The learned shift spread over the rows: entry (r, k) is lane k of the vector. -/
theorem shift1 (r : Fin 50000) (k : Fin 256) : val_main_v68 (F := Ideal) x5 (ix2 r k) = x5 (ix1 k) := by
  rewrite [val_main_v68_apply, val_main_v67_apply]
  exact congrArg x5 (funext fun a => Fin.ext (by match a with | ⟨0, _⟩ => rfl))

/-- Bias added and the positive part kept: entry (r, k) is the positive part of lane k of the biased input row r. -/
theorem relu1 (r : Fin 50000) (k : Fin 256) :
    val_main_v47 (F := Ideal) x0 x1 x2 x3 (ix2 r k)
      = relu (fun k => val_main_v43 (F := Ideal) x0 x1 x2 (ix2 r k)) (fun k => x3 (ix1 k)) k := by
  rewrite [val_main_v47_apply, val_main_v46_apply, val_main_call1_v0_apply, val_main_call1_cst_apply, bias1]
  rfl

/-- The row's mean, kept as a column: the lanes' sum over the lane count. The sum starts from the zero word, which
    adds nothing. -/
theorem mean1 (r : Fin 50000) :
    val_main_v51 (F := Ideal) x0 x1 x2 x3 (ix2 r (0 : Fin 1))
      = mean w256 (relu (fun k => val_main_v43 (F := Ideal) x0 x1 x2 (ix2 r k)) (fun k => x3 (ix1 k))) := by
  rewrite [val_main_v51_apply, val_main_v49_apply, val_main_v50_apply, val_main_cst_10_apply, val_main_v48_apply,
    val_main_cst_9_apply]
  simp only [Ideal.hostDivf_def, Ideal.ofBits_def, Ideal.ofBits_zero_f32, zero_add]
  unfold mean
  refine congrArg (fun s => Ideal.div s w256) (Finset.sum_congr rfl fun k _ => ?_)
  rewrite [show idx_main_v48 (idx_main_v49 (ix2 r (0 : Fin 1))) k = ix2 r k from
      funext fun a => Fin.ext (by match a with | ⟨0, _⟩ => rfl | ⟨1, _⟩ => rfl),
    relu1]
  rfl

/-- The row with its mean taken off: entry (r, k) is lane k of the centred row r. -/
theorem centred1 (r : Fin 50000) (k : Fin 256) :
    val_main_v53 (F := Ideal) x0 x1 x2 x3 (ix2 r k)
      = centred w256 (relu (fun k => val_main_v43 (F := Ideal) x0 x1 x2 (ix2 r k)) (fun k => x3 (ix1 k))) k := by
  rewrite [val_main_v53_apply, val_main_v52_apply, relu1,
    show idx_main_v52 (ix2 r k) = ix2 r (0 : Fin 1) from
      funext fun a => Fin.ext (by match a with | ⟨0, _⟩ => rfl | ⟨1, _⟩ => rfl),
    mean1]
  rfl

/-- The row's variance, kept as a column: the mean of the centred row's squares. -/
theorem var1 (r : Fin 50000) :
    val_main_v58 (F := Ideal) x0 x1 x2 x3 (ix2 r (0 : Fin 1))
      = mean w256 (fun k =>
          centred w256 (relu (fun k => val_main_v43 (F := Ideal) x0 x1 x2 (ix2 r k)) (fun k => x3 (ix1 k))) k
            * centred w256 (relu (fun k => val_main_v43 (F := Ideal) x0 x1 x2 (ix2 r k)) (fun k => x3 (ix1 k))) k) := by
  rewrite [val_main_v58_apply, val_main_v56_apply, val_main_v57_apply, val_main_cst_12_apply, val_main_v55_apply,
    val_main_cst_11_apply]
  simp only [Ideal.hostDivf_def, Ideal.ofBits_def, Ideal.ofBits_zero_f32, zero_add]
  unfold mean
  refine congrArg (fun s => Ideal.div s w256) (Finset.sum_congr rfl fun k _ => ?_)
  rewrite [show idx_main_v55 (idx_main_v56 (ix2 r (0 : Fin 1))) k = ix2 r k from
      funext fun a => Fin.ext (by match a with | ⟨0, _⟩ => rfl | ⟨1, _⟩ => rfl),
    val_main_v54_apply, centred1]
  rfl

/-- The layer's last stage at (r, q) is lane q of the finished row r: the centred row times the inverse root of the
    variance plus eps, times the scale, plus the shift. -/
theorem post1 (r : Fin 50000) (q : Fin 256) :
    val_main_v69 (F := Ideal) x0 x1 x2 x3 x4 x5 (ix2 r q)
      = postRow w256 (fun k => val_main_v43 (F := Ideal) x0 x1 x2 (ix2 r k)) (fun k => x3 (ix1 k))
          (fun k => x4 (ix1 k)) (fun k => x5 (ix1 k)) q := by
  rewrite [val_main_v69_apply, val_main_v66_apply, val_main_v63_apply, val_main_v62_apply, val_main_v61_apply, val_main_v60_apply,
    val_main_v59_apply, val_main_cst_13_apply, centred1, scale1, shift1,
    show idx_main_v62 (ix2 r q) = ix2 r (0 : Fin 1) from
      funext fun a => Fin.ext (by match a with | ⟨0, _⟩ => rfl | ⟨1, _⟩ => rfl),
    var1]
  rfl

/-! ## The second layer: 256 lanes -/

/-- The bias vector spread over the rows: entry (r, k) is lane k of the vector. -/
theorem bias2 (r : Fin 50000) (k : Fin 256) : val_main_v111 (F := Ideal) x7 (ix2 r k) = x7 (ix1 k) := by
  rewrite [val_main_v111_apply, val_main_v110_apply]
  exact congrArg x7 (funext fun a => Fin.ext (by match a with | ⟨0, _⟩ => rfl))

/-- The learned scale spread over the rows: entry (r, k) is lane k of the vector. -/
theorem scale2 (r : Fin 50000) (k : Fin 256) : val_main_v131 (F := Ideal) x8 (ix2 r k) = x8 (ix1 k) := by
  rewrite [val_main_v131_apply, val_main_v130_apply]
  exact congrArg x8 (funext fun a => Fin.ext (by match a with | ⟨0, _⟩ => rfl))

/-- The learned shift spread over the rows: entry (r, k) is lane k of the vector. -/
theorem shift2 (r : Fin 50000) (k : Fin 256) : val_main_v134 (F := Ideal) x9 (ix2 r k) = x9 (ix1 k) := by
  rewrite [val_main_v134_apply, val_main_v133_apply]
  exact congrArg x9 (funext fun a => Fin.ext (by match a with | ⟨0, _⟩ => rfl))

/-- Bias added and the positive part kept: entry (r, k) is the positive part of lane k of the biased input row r. -/
theorem relu2 (r : Fin 50000) (k : Fin 256) :
    val_main_v113 (F := Ideal) x0 x1 x2 x3 x4 x5 x6 x7 (ix2 r k)
      = relu (fun k => val_main_v109 (F := Ideal) x0 x1 x2 x3 x4 x5 x6 (ix2 r k)) (fun k => x7 (ix1 k)) k := by
  rewrite [val_main_v113_apply, val_main_v112_apply, val_main_call3_v0_apply, val_main_call3_cst_apply, bias2]
  rfl

/-- The row's mean, kept as a column: the lanes' sum over the lane count. The sum starts from the zero word, which
    adds nothing. -/
theorem mean2 (r : Fin 50000) :
    val_main_v117 (F := Ideal) x0 x1 x2 x3 x4 x5 x6 x7 (ix2 r (0 : Fin 1))
      = mean w256 (relu (fun k => val_main_v109 (F := Ideal) x0 x1 x2 x3 x4 x5 x6 (ix2 r k)) (fun k => x7 (ix1 k))) := by
  rewrite [val_main_v117_apply, val_main_v115_apply, val_main_v116_apply, val_main_cst_26_apply, val_main_v114_apply,
    val_main_cst_25_apply]
  simp only [Ideal.hostDivf_def, Ideal.ofBits_def, Ideal.ofBits_zero_f32, zero_add]
  unfold mean
  refine congrArg (fun s => Ideal.div s w256) (Finset.sum_congr rfl fun k _ => ?_)
  rewrite [show idx_main_v114 (idx_main_v115 (ix2 r (0 : Fin 1))) k = ix2 r k from
      funext fun a => Fin.ext (by match a with | ⟨0, _⟩ => rfl | ⟨1, _⟩ => rfl),
    relu2]
  rfl

/-- The row with its mean taken off: entry (r, k) is lane k of the centred row r. -/
theorem centred2 (r : Fin 50000) (k : Fin 256) :
    val_main_v119 (F := Ideal) x0 x1 x2 x3 x4 x5 x6 x7 (ix2 r k)
      = centred w256 (relu (fun k => val_main_v109 (F := Ideal) x0 x1 x2 x3 x4 x5 x6 (ix2 r k)) (fun k => x7 (ix1 k))) k := by
  rewrite [val_main_v119_apply, val_main_v118_apply, relu2,
    show idx_main_v118 (ix2 r k) = ix2 r (0 : Fin 1) from
      funext fun a => Fin.ext (by match a with | ⟨0, _⟩ => rfl | ⟨1, _⟩ => rfl),
    mean2]
  rfl

/-- The row's variance, kept as a column: the mean of the centred row's squares. -/
theorem var2 (r : Fin 50000) :
    val_main_v124 (F := Ideal) x0 x1 x2 x3 x4 x5 x6 x7 (ix2 r (0 : Fin 1))
      = mean w256 (fun k =>
          centred w256 (relu (fun k => val_main_v109 (F := Ideal) x0 x1 x2 x3 x4 x5 x6 (ix2 r k)) (fun k => x7 (ix1 k))) k
            * centred w256 (relu (fun k => val_main_v109 (F := Ideal) x0 x1 x2 x3 x4 x5 x6 (ix2 r k)) (fun k => x7 (ix1 k))) k) := by
  rewrite [val_main_v124_apply, val_main_v122_apply, val_main_v123_apply, val_main_cst_28_apply, val_main_v121_apply,
    val_main_cst_27_apply]
  simp only [Ideal.hostDivf_def, Ideal.ofBits_def, Ideal.ofBits_zero_f32, zero_add]
  unfold mean
  refine congrArg (fun s => Ideal.div s w256) (Finset.sum_congr rfl fun k _ => ?_)
  rewrite [show idx_main_v121 (idx_main_v122 (ix2 r (0 : Fin 1))) k = ix2 r k from
      funext fun a => Fin.ext (by match a with | ⟨0, _⟩ => rfl | ⟨1, _⟩ => rfl),
    val_main_v120_apply, centred2]
  rfl

/-- The layer's last stage at (r, q) is lane q of the finished row r: the centred row times the inverse root of the
    variance plus eps, times the scale, plus the shift. -/
theorem post2 (r : Fin 50000) (q : Fin 256) :
    val_main_v135 (F := Ideal) x0 x1 x2 x3 x4 x5 x6 x7 x8 x9 (ix2 r q)
      = postRow w256 (fun k => val_main_v109 (F := Ideal) x0 x1 x2 x3 x4 x5 x6 (ix2 r k)) (fun k => x7 (ix1 k))
          (fun k => x8 (ix1 k)) (fun k => x9 (ix1 k)) q := by
  rewrite [val_main_v135_apply, val_main_v132_apply, val_main_v129_apply, val_main_v128_apply, val_main_v127_apply, val_main_v126_apply,
    val_main_v125_apply, val_main_cst_29_apply, centred2, scale2, shift2,
    show idx_main_v128 (ix2 r q) = ix2 r (0 : Fin 1) from
      funext fun a => Fin.ext (by match a with | ⟨0, _⟩ => rfl | ⟨1, _⟩ => rfl),
    var2]
  rfl

/-! ## The third layer: 128 lanes -/

/-- The bias vector spread over the rows: entry (r, k) is lane k of the vector. -/
theorem bias3 (r : Fin 50000) (k : Fin 128) : val_main_v177 (F := Ideal) x11 (ix2 r k) = x11 (ix1 k) := by
  rewrite [val_main_v177_apply, val_main_v176_apply]
  exact congrArg x11 (funext fun a => Fin.ext (by match a with | ⟨0, _⟩ => rfl))

/-- The learned scale spread over the rows: entry (r, k) is lane k of the vector. -/
theorem scale3 (r : Fin 50000) (k : Fin 128) : val_main_v197 (F := Ideal) x12 (ix2 r k) = x12 (ix1 k) := by
  rewrite [val_main_v197_apply, val_main_v196_apply]
  exact congrArg x12 (funext fun a => Fin.ext (by match a with | ⟨0, _⟩ => rfl))

/-- The learned shift spread over the rows: entry (r, k) is lane k of the vector. -/
theorem shift3 (r : Fin 50000) (k : Fin 128) : val_main_v200 (F := Ideal) x13 (ix2 r k) = x13 (ix1 k) := by
  rewrite [val_main_v200_apply, val_main_v199_apply]
  exact congrArg x13 (funext fun a => Fin.ext (by match a with | ⟨0, _⟩ => rfl))

/-- Bias added and the positive part kept: entry (r, k) is the positive part of lane k of the biased input row r. -/
theorem relu3 (r : Fin 50000) (k : Fin 128) :
    val_main_v179 (F := Ideal) x0 x1 x2 x3 x4 x5 x6 x7 x8 x9 x10 x11 (ix2 r k)
      = relu (fun k => val_main_v175 (F := Ideal) x0 x1 x2 x3 x4 x5 x6 x7 x8 x9 x10 (ix2 r k)) (fun k => x11 (ix1 k)) k := by
  rewrite [val_main_v179_apply, val_main_v178_apply, val_main_call5_v0_apply, val_main_call5_cst_apply, bias3]
  rfl

/-- The row's mean, kept as a column: the lanes' sum over the lane count. The sum starts from the zero word, which
    adds nothing. -/
theorem mean3 (r : Fin 50000) :
    val_main_v183 (F := Ideal) x0 x1 x2 x3 x4 x5 x6 x7 x8 x9 x10 x11 (ix2 r (0 : Fin 1))
      = mean w128 (relu (fun k => val_main_v175 (F := Ideal) x0 x1 x2 x3 x4 x5 x6 x7 x8 x9 x10 (ix2 r k)) (fun k => x11 (ix1 k))) := by
  rewrite [val_main_v183_apply, val_main_v181_apply, val_main_v182_apply, val_main_cst_42_apply, val_main_v180_apply,
    val_main_cst_41_apply]
  simp only [Ideal.hostDivf_def, Ideal.ofBits_def, Ideal.ofBits_zero_f32, zero_add]
  unfold mean
  refine congrArg (fun s => Ideal.div s w128) (Finset.sum_congr rfl fun k _ => ?_)
  rewrite [show idx_main_v180 (idx_main_v181 (ix2 r (0 : Fin 1))) k = ix2 r k from
      funext fun a => Fin.ext (by match a with | ⟨0, _⟩ => rfl | ⟨1, _⟩ => rfl),
    relu3]
  rfl

/-- The row with its mean taken off: entry (r, k) is lane k of the centred row r. -/
theorem centred3 (r : Fin 50000) (k : Fin 128) :
    val_main_v185 (F := Ideal) x0 x1 x2 x3 x4 x5 x6 x7 x8 x9 x10 x11 (ix2 r k)
      = centred w128 (relu (fun k => val_main_v175 (F := Ideal) x0 x1 x2 x3 x4 x5 x6 x7 x8 x9 x10 (ix2 r k)) (fun k => x11 (ix1 k))) k := by
  rewrite [val_main_v185_apply, val_main_v184_apply, relu3,
    show idx_main_v184 (ix2 r k) = ix2 r (0 : Fin 1) from
      funext fun a => Fin.ext (by match a with | ⟨0, _⟩ => rfl | ⟨1, _⟩ => rfl),
    mean3]
  rfl

/-- The row's variance, kept as a column: the mean of the centred row's squares. -/
theorem var3 (r : Fin 50000) :
    val_main_v190 (F := Ideal) x0 x1 x2 x3 x4 x5 x6 x7 x8 x9 x10 x11 (ix2 r (0 : Fin 1))
      = mean w128 (fun k =>
          centred w128 (relu (fun k => val_main_v175 (F := Ideal) x0 x1 x2 x3 x4 x5 x6 x7 x8 x9 x10 (ix2 r k)) (fun k => x11 (ix1 k))) k
            * centred w128 (relu (fun k => val_main_v175 (F := Ideal) x0 x1 x2 x3 x4 x5 x6 x7 x8 x9 x10 (ix2 r k)) (fun k => x11 (ix1 k))) k) := by
  rewrite [val_main_v190_apply, val_main_v188_apply, val_main_v189_apply, val_main_cst_44_apply, val_main_v187_apply,
    val_main_cst_43_apply]
  simp only [Ideal.hostDivf_def, Ideal.ofBits_def, Ideal.ofBits_zero_f32, zero_add]
  unfold mean
  refine congrArg (fun s => Ideal.div s w128) (Finset.sum_congr rfl fun k _ => ?_)
  rewrite [show idx_main_v187 (idx_main_v188 (ix2 r (0 : Fin 1))) k = ix2 r k from
      funext fun a => Fin.ext (by match a with | ⟨0, _⟩ => rfl | ⟨1, _⟩ => rfl),
    val_main_v186_apply, centred3]
  rfl

/-- The layer's last stage at (r, q) is lane q of the finished row r: the centred row times the inverse root of the
    variance plus eps, times the scale, plus the shift. -/
theorem post3 (r : Fin 50000) (q : Fin 128) :
    val_main_v201 (F := Ideal) x0 x1 x2 x3 x4 x5 x6 x7 x8 x9 x10 x11 x12 x13 (ix2 r q)
      = postRow w128 (fun k => val_main_v175 (F := Ideal) x0 x1 x2 x3 x4 x5 x6 x7 x8 x9 x10 (ix2 r k)) (fun k => x11 (ix1 k))
          (fun k => x12 (ix1 k)) (fun k => x13 (ix1 k)) q := by
  rewrite [val_main_v201_apply, val_main_v198_apply, val_main_v195_apply, val_main_v194_apply, val_main_v193_apply, val_main_v192_apply,
    val_main_v191_apply, val_main_cst_45_apply, centred3, scale3, shift3,
    show idx_main_v194 (ix2 r q) = ix2 r (0 : Fin 1) from
      funext fun a => Fin.ext (by match a with | ⟨0, _⟩ => rfl | ⟨1, _⟩ => rfl),
    var3]
  rfl

end Cert.ReferenceIdeal.RefValue

end
-- ==== Proof.RefValue.lean ====
/-
  The reference's last stage is the network's function of the arguments.

  Read stage by stage, the reference is the network spelt out: a `dot_general` is the matrix product; the gathers, the
  scaling and the scatter-add are the message passing, fed with the edge list and the edge weights (which the reference
  computes afresh in every layer, from the same argument and by the same operations, so they are the same arrays each
  time); and the twenty-six operations after it are a layer's last stage, row by row.
-/
import proofs.«119902_j28243704939123_1_alg».proof.Proof.RefRead
import proofs.«119902_j28243704939123_1_alg».proof.Proof.RefPost
import proofs.«119902_j28243704939123_1_alg».proof.Proof.Network

set_option maxRecDepth 16384

noncomputable section

namespace Cert.ReferenceIdeal.NetValue

open Cert.ReferenceIdeal Cert.ReferenceIdeal.Gen Cert.ReferenceIdeal.ReadP Cert.ReferenceIdeal.RefValue
open Cert.Aggregate Cert.Layer Cert.MatrixProduct Cert.Network
open Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S256x128, .f32⟩ : BufTy).Contents (Elt Ideal)) (x11 x12 x13 : (⟨S128, .f32⟩ : BufTy).Contents (Elt Ideal))

/-! ## The edge list and the weights, in each layer -/

theorem src1 : val_main_v6 (F := Ideal) x1 = srcIdx x1 := rfl
theorem dst1 : val_main_v7 (F := Ideal) x1 = dstIdx x1 := rfl
theorem wgt1 : val_main_v30 (F := Ideal) x1 = edgeWeight (srcIdx x1) (dstIdx x1) := rfl
theorem src2 : val_main_v72 (F := Ideal) x1 = srcIdx x1 := rfl
theorem dst2 : val_main_v73 (F := Ideal) x1 = dstIdx x1 := rfl
theorem wgt2 : val_main_v96 (F := Ideal) x1 = edgeWeight (srcIdx x1) (dstIdx x1) := rfl
theorem src3 : val_main_v138 (F := Ideal) x1 = srcIdx x1 := rfl
theorem dst3 : val_main_v139 (F := Ideal) x1 = dstIdx x1 := rfl
theorem wgt3 : val_main_v162 (F := Ideal) x1 = edgeWeight (srcIdx x1) (dstIdx x1) := rfl

/-! ## Layer 1 -/

theorem prod1 : val_main_v4 (F := Ideal) x0 x2 = mm x0 x2 := by
  unfold val_main_v4
  exact dotGeneral_eq_mm _ none x0 x2

theorem pass1 : val_main_v43 (F := Ideal) x0 x1 x2
    = agg256 (F := Ideal) (val_main_v4 (F := Ideal) x0 x2) (val_main_v6 (F := Ideal) x1) (val_main_v7 (F := Ideal) x1) (val_main_v30 (F := Ideal) x1) := rfl

theorem last1 : val_main_v69 (F := Ideal) x0 x1 x2 x3 x4 x5
    = post w256 (val_main_v43 (F := Ideal) x0 x1 x2) (lanes x3) (lanes x4) (lanes x5) := by
  funext i
  obtain ⟨r, q, rfl⟩ : ∃ (r : Fin 50000) (q : Fin 256), i = ix2 r q := ⟨i 0, i 1, eq_ix2 i⟩
  exact post1 x0 x1 x2 x3 x4 x5 r q

theorem layer1 : val_main_v69 (F := Ideal) x0 x1 x2 x3 x4 x5 = finish256 (mm x0 x2) x1 x3 x4 x5 := by
  rw [last1, pass1, prod1, src1, dst1, wgt1]
  rfl

/-! ## Layer 2 -/

theorem prod2 : val_main_v70 (F := Ideal) x0 x1 x2 x3 x4 x5 x6 = mm (val_main_v69 (F := Ideal) x0 x1 x2 x3 x4 x5) x6 := by
  unfold val_main_v70
  exact dotGeneral_eq_mm _ none _ x6

theorem pass2 : val_main_v109 (F := Ideal) x0 x1 x2 x3 x4 x5 x6
    = agg256 (F := Ideal) (val_main_v70 (F := Ideal) x0 x1 x2 x3 x4 x5 x6) (val_main_v72 (F := Ideal) x1) (val_main_v73 (F := Ideal) x1) (val_main_v96 (F := Ideal) x1) := rfl

theorem last2 : val_main_v135 (F := Ideal) x0 x1 x2 x3 x4 x5 x6 x7 x8 x9
    = post w256 (val_main_v109 (F := Ideal) x0 x1 x2 x3 x4 x5 x6) (lanes x7) (lanes x8) (lanes x9) := by
  funext i
  obtain ⟨r, q, rfl⟩ : ∃ (r : Fin 50000) (q : Fin 256), i = ix2 r q := ⟨i 0, i 1, eq_ix2 i⟩
  exact post2 x0 x1 x2 x3 x4 x5 x6 x7 x8 x9 r q

theorem layer2 : val_main_v135 (F := Ideal) x0 x1 x2 x3 x4 x5 x6 x7 x8 x9
    = finish256 (mm (finish256 (mm x0 x2) x1 x3 x4 x5) x6) x1 x7 x8 x9 := by
  rw [last2, pass2, prod2, layer1, src2, dst2, wgt2]
  rfl

/-! ## Layer 3 -/

theorem prod3 : val_main_v136 (F := Ideal) x0 x1 x2 x3 x4 x5 x6 x7 x8 x9 x10 = mm (val_main_v135 (F := Ideal) x0 x1 x2 x3 x4 x5 x6 x7 x8 x9) x10 := by
  unfold val_main_v136
  exact dotGeneral_eq_mm _ none _ x10

theorem pass3 : val_main_v175 (F := Ideal) x0 x1 x2 x3 x4 x5 x6 x7 x8 x9 x10
    = agg128 (F := Ideal) (val_main_v136 (F := Ideal) x0 x1 x2 x3 x4 x5 x6 x7 x8 x9 x10) (val_main_v138 (F := Ideal) x1) (val_main_v139 (F := Ideal) x1) (val_main_v162 (F := Ideal) x1) := rfl

theorem last3 : val_main_v201 (F := Ideal) x0 x1 x2 x3 x4 x5 x6 x7 x8 x9 x10 x11 x12 x13
    = post w128 (val_main_v175 (F := Ideal) x0 x1 x2 x3 x4 x5 x6 x7 x8 x9 x10) (lanes x11) (lanes x12) (lanes x13) := by
  funext i
  obtain ⟨r, q, rfl⟩ : ∃ (r : Fin 50000) (q : Fin 128), i = ix2 r q := ⟨i 0, i 1, eq_ix2 i⟩
  exact post3 x0 x1 x2 x3 x4 x5 x6 x7 x8 x9 x10 x11 x12 x13 r q

/-- The reference's last stage is the network. -/
theorem total : val_main_v201 (F := Ideal) x0 x1 x2 x3 x4 x5 x6 x7 x8 x9 x10 x11 x12 x13
    = net x0 x1 x2 x3 x4 x5 x6 x7 x8 x9 x10 x11 x12 x13 := by
  rw [last3, pass3, prod3, layer2, src3, dst3, wgt3]
  rfl

end Cert.ReferenceIdeal.NetValue

end
-- ==== Proof.lean ====
/-
  A three-layer graph network, computed two ways, gives the same result on the extended reals.

  Both programs take node features x (50000 × 128), an edge list (2 × 800000) and, per layer, a weight matrix, a bias, a
  scale and a shift. A layer multiplies the features by the weight matrix, passes messages along the edges and one
  self-loop per node — each edge carries its source's row, scaled by the product of the inverse root degrees of its two
  ends, into its destination's row —, adds the bias, keeps the positive part, and normalises each row (mean off, divided
  by the root of the variance plus eps, times the scale, plus the shift).

  The kernel program does the matrix products and the row normalisations in six launches that work through the 50000
  rows 2000 at a time, and computes the edge weights once; the reference is one line of host operations and computes the
  edge weights afresh in every layer. On the extended reals nothing distinguishes them: a product of row blocks is the
  rows of the product (an entry of a product depends on one row of the left factor), a finished row depends on its own
  input row only, narrowing an operand to a shorter float format is the identity, a sum along a row is the same sum on
  the vector unit and on the host, and the message passing is spelt with the same operations on both sides and is fed
  equal operands. No step moves a factor across a sum, so no finiteness is used: the precondition is never opened.

  The modules: Spec (a layer's last stage on one row), KernelPost and RefPost (each program's last stage read at an
  entry), ProductLaunch and PostLaunch (a launch's result array as one whole-array function), Aggregate and Network (the
  message passing and the whole network as functions of the arguments), KernelRun and KernelValue (the kernel program's
  run, and what its result buffer holds), RefOps, RefRead and RefRun (the reference's operations, their stages, and its
  run read stage by stage), RefValue (the reference's last stage is the network).
-/
import proofs.«119902_j28243704939123_1_alg».proof.Defs
import proofs.«119902_j28243704939123_1_alg».proof.Proof.Gen.Kernel
import proofs.«119902_j28243704939123_1_alg».proof.Proof.Gen.Kernel.Skeleton
import proofs.«119902_j28243704939123_1_alg».proof.Proof.Gen.Kernel.Launch
import proofs.«119902_j28243704939123_1_alg».proof.Proof.Gen.Kernel.Points
import proofs.«119902_j28243704939123_1_alg».proof.Proof.Gen.Kernel.Frame
import proofs.«119902_j28243704939123_1_alg».proof.Proof.Gen.KernelIdeal
import proofs.«119902_j28243704939123_1_alg».proof.Proof.Gen.KernelIdeal.Skeleton
import proofs.«119902_j28243704939123_1_alg».proof.Proof.Gen.KernelIdeal.Launch
import proofs.«119902_j28243704939123_1_alg».proof.Proof.Gen.KernelIdeal.Points
import proofs.«119902_j28243704939123_1_alg».proof.Proof.Gen.KernelIdeal.Frame
import proofs.«119902_j28243704939123_1_alg».proof.Proof.Gen.ReferenceIdeal
import proofs.«119902_j28243704939123_1_alg».proof.Proof.Gen.Pre_finite_inputs
import proofs.«119902_j28243704939123_1_alg».proof.Proof.KernelRun
import proofs.«119902_j28243704939123_1_alg».proof.Proof.KernelValue
import proofs.«119902_j28243704939123_1_alg».proof.Proof.RefRun
import proofs.«119902_j28243704939123_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the arguments both programs end with the network's function of the arguments in their
    result buffers: the kernel program by walking its boundaries, the reference by walking its stages. -/
theorem algebraic : Cert.algebraic_KernelIdeal_ReferenceIdeal := by
  intro m ρ m' ρ' _ hagree
  refine ⟨fun c => Cert.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.ValueChain.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9, h10, h11, h12, h13⟩ := hagree c
    rw [h0, h1, h2, h3, h4, h5, h6, h7, h8, h9, h10, h11, h12, h13]
    exact Cert.ReferenceIdeal.NetValue.total _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
